-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x4x4 : Shape := ⟨4, ![512, 512, 4, 4]⟩
abbrev S8192x1024 : Shape := ⟨2, ![8192, 1024]⟩
abbrev S_ : Shape := ⟨0, ![]⟩

class Facts : Prop where
  bcast_S_S512x512x4x4 : S_.BroadcastsInDim S512x512x4x4 (![] : Fin 0 → Fin S512x512x4x4.rank)
  reducesTo_S512x512x4x4_S_d0_1_2_3 : S512x512x4x4.ReducesTo [0, 1, 2, 3] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S512x512x4x4 .f32) (main_arg1 : FVec F S8192x1024 .f32) : IVec S_ 1 :=
  let main_v0 : FVec F S512x512x4x4 .f32 := Host.absf main_arg0
  let main_cst : FVec F S_ .f32 := constant S_ .f32 0x7F800000#32
  let main_v1 : FVec F S512x512x4x4 .f32 := broadcastInDim S512x512x4x4 ![] bcast_S_S512x512x4x4 main_cst
  let main_v2 : IVec S512x512x4x4 1 := cmpf .olt main_v0 main_v1
  let main_c : IVec S_ 1 := constantI S_ 1 1#1
  let main_v3 : IVec S_ 1 := (fun x v => Host.reduce IntOp.andi x v reducesTo_S512x512x4x4_S_d0_1_2_3 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S512x512x4x4 : Shape := ⟨4, ![512, 512, 4, 4]⟩
abbrev S8192x1024 : Shape := ⟨2, ![8192, 1024]⟩
abbrev S512x8192 : Shape := ⟨2, ![512, 8192]⟩
abbrev S512x1024 : Shape := ⟨2, ![512, 1024]⟩
abbrev S1024x512 : Shape := ⟨2, ![1024, 512]⟩
abbrev S512x512 : Shape := ⟨2, ![512, 512]⟩
abbrev S512x64x16 : Shape := ⟨3, ![512, 64, 16]⟩
abbrev S64x16x512 : Shape := ⟨3, ![64, 16, 512]⟩
abbrev S64x512x16 : Shape := ⟨3, ![64, 512, 16]⟩
abbrev S64x512 : Shape := ⟨2, ![64, 512]⟩
abbrev S8x16x512 : Shape := ⟨3, ![8, 16, 512]⟩
abbrev S8x512x16 : Shape := ⟨3, ![8, 512, 16]⟩
abbrev S8x512 : Shape := ⟨2, ![8, 512]⟩
abbrev S1x1x512 : Shape := ⟨3, ![1, 1, 512]⟩
abbrev S512 : Shape := ⟨1, ![512]⟩
abbrev S1x512 : Shape := ⟨2, ![1, 512]⟩
abbrev S1x512x1 : Shape := ⟨3, ![1, 512, 1]⟩
abbrev S512x1 : Shape := ⟨2, ![512, 1]⟩
abbrev S512x64 : Shape := ⟨2, ![512, 64]⟩
abbrev S512x8256 : Shape := ⟨2, ![512, 8256]⟩

abbrev nBuf : Space → Nat
  | .hbm => 10
  | .vmem => 13
  | .smem => 0
  | _ => 0

abbrev bufTy : (tb : Table) → Fin (tcTables nBuf tb) → BufTy
  | .hbm, ⟨0, _⟩ => ⟨S512x512x4x4, .f32⟩
  | .hbm, ⟨1, _⟩ => ⟨S8192x1024, .f32⟩
  | .hbm, ⟨2, _⟩ => ⟨S512x8192, .f32⟩
  | .hbm, ⟨3, _⟩ => ⟨S512x1024, .f32⟩
  | .hbm, ⟨4, _⟩ => ⟨S512x64x16, .f32⟩
  | .hbm, ⟨5, _⟩ => ⟨S64x16x512, .f32⟩
  | .hbm, ⟨6, _⟩ => ⟨S64x512x16, .f32⟩
  | .hbm, ⟨7, _⟩ => ⟨S64x512, .f32⟩
  | .hbm, ⟨8, _⟩ => ⟨S512x64, .f32⟩
  | .hbm, ⟨9, _⟩ => ⟨S512x8256, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S8x16x512, .f32⟩
  | .local _ .vmem, ⟨7, _⟩ => ⟨S8x16x512, .f32⟩
  | .local _ .vmem, ⟨8, _⟩ => ⟨S8x512x16, .f32⟩
  | .local _ .vmem, ⟨9, _⟩ => ⟨S8x512x16, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | _, _ => ⟨S512x512x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_off1 (k1_t1 : Fin k1_t1_loop.trips) : Fin 3 → Nat :=
  let c0_i32 : BitVec 32 := 0#32
  let c1_i32 : BitVec 32 := 1#32
  let arg5 : BitVec 32 := Scf.iv c0_i32 c1_i32 k1_t1
  let v5 : Index := Scalar.indexCast arg5
  let c0_2 : Index := 0#32
  let c0_3 : Index := 0#32
  ![v5.toNat, 0, 0]
def k1_off2 (k1_t1 : Fin k1_t1_loop.trips) : Fin 3 → Nat :=
  let c0_i32 : BitVec 32 := 0#32
  let c1_i32 : BitVec 32 := 1#32
  let arg5 : BitVec 32 := Scf.iv c0_i32 c1_i32 k1_t1
  let v9 : Index := Scalar.indexCast arg5
  let c0_4 : Index := 0#32
  let c0_5 : Index := 0#32
  ![v9.toNat, 0, 0]
def k1_off3 (k1_t1 : Fin k1_t1_loop.trips) : Fin 3 → Nat :=
  let c0_i32 : BitVec 32 := 0#32
  let c1_i32 : BitVec 32 := 1#32
  let arg5 : BitVec 32 := Scf.iv c0_i32 c1_i32 k1_t1
  let v21 : Index := Scalar.indexCast arg5
  let c1 : Index := 1#32
  let c0_10 : Index := 0#32
  ![v21.toNat, 1, 0]
def k1_off4 (k1_t1 : Fin k1_t1_loop.trips) : Fin 3 → Nat :=
  let c0_i32 : BitVec 32 := 0#32
  let c1_i32 : BitVec 32 := 1#32
  let arg5 : BitVec 32 := Scf.iv c0_i32 c1_i32 k1_t1
  let v25 : Index := Scalar.indexCast arg5
  let c0_11 : Index := 0#32
  let c1_12 : Index := 1#32
  ![v25.toNat, 0, 1]
def k1_off5 (k1_t1 : Fin k1_t1_loop.trips) : Fin 3 → Nat :=
  let c0_i32 : BitVec 32 := 0#32
  let c1_i32 : BitVec 32 := 1#32
  let arg5 : BitVec 32 := Scf.iv c0_i32 c1_i32 k1_t1
  let v37 : Index := Scalar.indexCast arg5
  let c2 : Index := 2#32
  let c0_17 : Index := 0#32
  ![v37.toNat, 2, 0]
def k1_off6 (k1_t1 : Fin k1_t1_loop.trips) : Fin 3 → Nat :=
  let c0_i32 : BitVec 32 := 0#32
  let c1_i32 : BitVec 32 := 1#32
  let arg5 : BitVec 32 := Scf.iv c0_i32 c1_i32 k1_t1
  let v41 : Index := Scalar.indexCast arg5
  let c0_18 : Index := 0#32
  let c2_19 : Index := 2#32
  ![v41.toNat, 0, 2]
def k1_off7 (k1_t1 : Fin k1_t1_loop.trips) : Fin 3 → Nat :=
  let c0_i32 : BitVec 32 := 0#32
  let c1_i32 : BitVec 32 := 1#32
  let arg5 : BitVec 32 := Scf.iv c0_i32 c1_i32 k1_t1
  let v53 : Index := Scalar.indexCast arg5
  let c3 : Index := 3#32
  let c0_24 : Index := 0#32
  ![v53.toNat, 3, 0]
def k1_off8 (k1_t1 : Fin k1_t1_loop.trips) : Fin 3 → Nat :=
  let c0_i32 : BitVec 32 := 0#32
  let c1_i32 : BitVec 32 := 1#32
  let arg5 : BitVec 32 := Scf.iv c0_i32 c1_i32 k1_t1
  let v57 : Index := Scalar.indexCast arg5
  let c0_25 : Index := 0#32
  let c3_26 : Index := 3#32
  ![v57.toNat, 0, 3]
def k1_off9 (k1_t1 : Fin k1_t1_loop.trips) : Fin 3 → Nat :=
  let c0_i32 : BitVec 32 := 0#32
  let c1_i32 : BitVec 32 := 1#32
  let arg5 : BitVec 32 := Scf.iv c0_i32 c1_i32 k1_t1
  let v69 : Index := Scalar.indexCast arg5
  let c4 : Index := 4#32
  let c0_31 : Index := 0#32
  ![v69.toNat, 4, 0]
def k1_off10 (k1_t1 : Fin k1_t1_loop.trips) : Fin 3 → Nat :=
  let c0_i32 : BitVec 32 := 0#32
  let c1_i32 : BitVec 32 := 1#32
  let arg5 : BitVec 32 := Scf.iv c0_i32 c1_i32 k1_t1
  let v73 : Index := Scalar.indexCast arg5
  let c0_32 : Index := 0#32
  let c4_33 : Index := 4#32
  ![v73.toNat, 0, 4]
def k1_off11 (k1_t1 : Fin k1_t1_loop.trips) : Fin 3 → Nat :=
  let c0_i32 : BitVec 32 := 0#32
  let c1_i32 : BitVec 32 := 1#32
  let arg5 : BitVec 32 := Scf.iv c0_i32 c1_i32 k1_t1
  let v85 : Index := Scalar.indexCast arg5
  let c5 : Index := 5#32
  let c0_38 : Index := 0#32
  ![v85.toNat, 5, 0]
def k1_off12 (k1_t1 : Fin k1_t1_loop.trips) : Fin 3 → Nat :=
  let c0_i32 : BitVec 32 := 0#32
  let c1_i32 : BitVec 32 := 1#32
  let arg5 : BitVec 32 := Scf.iv c0_i32 c1_i32 k1_t1
  let v89 : Index := Scalar.indexCast arg5
  let c0_39 : Index := 0#32
  let c5_40 : Index := 5#32
  ![v89.toNat, 0, 5]
def k1_off13 (k1_t1 : Fin k1_t1_loop.trips) : Fin 3 → Nat :=
  let c0_i32 : BitVec 32 := 0#32
  let c1_i32 : BitVec 32 := 1#32
  let arg5 : BitVec 32 := Scf.iv c0_i32 c1_i32 k1_t1
  let v101 : Index := Scalar.indexCast arg5
  let c6 : Index := 6#32
  let c0_45 : Index := 0#32
  ![v101.toNat, 6, 0]
def k1_off14 (k1_t1 : Fin k1_t1_loop.trips) : Fin 3 → Nat :=
  let c0_i32 : BitVec 32 := 0#32
  let c1_i32 : BitVec 32 := 1#32
  let arg5 : BitVec 32 := Scf.iv c0_i32 c1_i32 k1_t1
  let v105 : Index := Scalar.indexCast arg5
  let c0_46 : Index := 0#32
  let c6_47 : Index := 6#32
  ![v105.toNat, 0, 6]
def k1_off15 (k1_t1 : Fin k1_t1_loop.trips) : Fin 3 → Nat :=
  let c0_i32 : BitVec 32 := 0#32
  let c1_i32 : BitVec 32 := 1#32
  let arg5 : BitVec 32 := Scf.iv c0_i32 c1_i32 k1_t1
  let v117 : Index := Scalar.indexCast arg5
  let c7 : Index := 7#32
  let c0_52 : Index := 0#32
  ![v117.toNat, 7, 0]
def k1_off16 (k1_t1 : Fin k1_t1_loop.trips) : Fin 3 → Nat :=
  let c0_i32 : BitVec 32 := 0#32
  let c1_i32 : BitVec 32 := 1#32
  let arg5 : BitVec 32 := Scf.iv c0_i32 c1_i32 k1_t1
  let v121 : Index := Scalar.indexCast arg5
  let c0_53 : Index := 0#32
  let c7_54 : Index := 7#32
  ![v121.toNat, 0, 7]
def k1_off17 (k1_t1 : Fin k1_t1_loop.trips) : Fin 3 → Nat :=
  let c0_i32 : BitVec 32 := 0#32
  let c1_i32 : BitVec 32 := 1#32
  let arg5 : BitVec 32 := Scf.iv c0_i32 c1_i32 k1_t1
  let v133 : Index := Scalar.indexCast arg5
  let c8 : Index := 8#32
  let c0_59 : Index := 0#32
  ![v133.toNat, 8, 0]
def k1_off18 (k1_t1 : Fin k1_t1_loop.trips) : Fin 3 → Nat :=
  let c0_i32 : BitVec 32 := 0#32
  let c1_i32 : BitVec 32 := 1#32
  let arg5 : BitVec 32 := Scf.iv c0_i32 c1_i32 k1_t1
  let v137 : Index := Scalar.indexCast arg5
  let c0_60 : Index := 0#32
  let c8_61 : Index := 8#32
  ![v137.toNat, 0, 8]
def k1_off19 (k1_t1 : Fin k1_t1_loop.trips) : Fin 3 → Nat :=
  let c0_i32 : BitVec 32 := 0#32
  let c1_i32 : BitVec 32 := 1#32
  let arg5 : BitVec 32 := Scf.iv c0_i32 c1_i32 k1_t1
  let v149 : Index := Scalar.indexCast arg5
  let c9 : Index := 9#32
  let c0_66 : Index := 0#32
  ![v149.toNat, 9, 0]
def k1_off20 (k1_t1 : Fin k1_t1_loop.trips) : Fin 3 → Nat :=
  let c0_i32 : BitVec 32 := 0#32
  let c1_i32 : BitVec 32 := 1#32
  let arg5 : BitVec 32 := Scf.iv c0_i32 c1_i32 k1_t1
  let v153 : Index := Scalar.indexCast arg5
  let c0_67 : Index := 0#32
  let c9_68 : Index := 9#32
  ![v153.toNat, 0, 9]
def k1_off21 (k1_t1 : Fin k1_t1_loop.trips) : Fin 3 → Nat :=
  let c0_i32 : BitVec 32 := 0#32
  let c1_i32 : BitVec 32 := 1#32
  let arg5 : BitVec 32 := Scf.iv c0_i32 c1_i32 k1_t1
  let v165 : Index := Scalar.indexCast arg5
  let c10 : Index := 10#32
  let c0_73 : Index := 0#32
  ![v165.toNat, 10, 0]
def k1_off22 (k1_t1 : Fin k1_t1_loop.trips) : Fin 3 → Nat :=
  let c0_i32 : BitVec 32 := 0#32
  let c1_i32 : BitVec 32 := 1#32
  let arg5 : BitVec 32 := Scf.iv c0_i32 c1_i32 k1_t1
  let v169 : Index := Scalar.indexCast arg5
  let c0_74 : Index := 0#32
  let c10_75 : Index := 10#32
  ![v169.toNat, 0, 10]
def k1_off23 (k1_t1 : Fin k1_t1_loop.trips) : Fin 3 → Nat :=
  let c0_i32 : BitVec 32 := 0#32
  let c1_i32 : BitVec 32 := 1#32
  let arg5 : BitVec 32 := Scf.iv c0_i32 c1_i32 k1_t1
  let v181 : Index := Scalar.indexCast arg5
  let c11 : Index := 11#32
  let c0_80 : Index := 0#32
  ![v181.toNat, 11, 0]
def k1_off24 (k1_t1 : Fin k1_t1_loop.trips) : Fin 3 → Nat :=
  let c0_i32 : BitVec 32 := 0#32
  let c1_i32 : BitVec 32 := 1#32
  let arg5 : BitVec 32 := Scf.iv c0_i32 c1_i32 k1_t1
  let v185 : Index := Scalar.indexCast arg5
  let c0_81 : Index := 0#32
  let c11_82 : Index := 11#32
  ![v185.toNat, 0, 11]
def k1_off25 (k1_t1 : Fin k1_t1_loop.trips) : Fin 3 → Nat :=
  let c0_i32 : BitVec 32 := 0#32
  let c1_i32 : BitVec 32 := 1#32
  let arg5 : BitVec 32 := Scf.iv c0_i32 c1_i32 k1_t1
  let v197 : Index := Scalar.indexCast arg5
  let c12 : Index := 12#32
  let c0_87 : Index := 0#32
  ![v197.toNat, 12, 0]
def k1_off26 (k1_t1 : Fin k1_t1_loop.trips) : Fin 3 → Nat :=
  let c0_i32 : BitVec 32 := 0#32
  let c1_i32 : BitVec 32 := 1#32
  let arg5 : BitVec 32 := Scf.iv c0_i32 c1_i32 k1_t1
  let v201 : Index := Scalar.indexCast arg5
  let c0_88 : Index := 0#32
  let c12_89 : Index := 12#32
  ![v201.toNat, 0, 12]
def k1_off27 (k1_t1 : Fin k1_t1_loop.trips) : Fin 3 → Nat :=
  let c0_i32 : BitVec 32 := 0#32
  let c1_i32 : BitVec 32 := 1#32
  let arg5 : BitVec 32 := Scf.iv c0_i32 c1_i32 k1_t1
  let v213 : Index := Scalar.indexCast arg5
  let c13 : Index := 13#32
  let c0_94 : Index := 0#32
  ![v213.toNat, 13, 0]
def k1_off28 (k1_t1 : Fin k1_t1_loop.trips) : Fin 3 → Nat :=
  let c0_i32 : BitVec 32 := 0#32
  let c1_i32 : BitVec 32 := 1#32
  let arg5 : BitVec 32 := Scf.iv c0_i32 c1_i32 k1_t1
  let v217 : Index := Scalar.indexCast arg5
  let c0_95 : Index := 0#32
  let c13_96 : Index := 13#32
  ![v217.toNat, 0, 13]
def k1_off29 (k1_t1 : Fin k1_t1_loop.trips) : Fin 3 → Nat :=
  let c0_i32 : BitVec 32 := 0#32
  let c1_i32 : BitVec 32 := 1#32
  let arg5 : BitVec 32 := Scf.iv c0_i32 c1_i32 k1_t1
  let v229 : Index := Scalar.indexCast arg5
  let c14 : Index := 14#32
  let c0_101 : Index := 0#32
  ![v229.toNat, 14, 0]
def k1_off30 (k1_t1 : Fin k1_t1_loop.trips) : Fin 3 → Nat :=
  let c0_i32 : BitVec 32 := 0#32
  let c1_i32 : BitVec 32 := 1#32
  let arg5 : BitVec 32 := Scf.iv c0_i32 c1_i32 k1_t1
  let v233 : Index := Scalar.indexCast arg5
  let c0_102 : Index := 0#32
  let c14_103 : Index := 14#32
  ![v233.toNat, 0, 14]
def k1_off31 (k1_t1 : Fin k1_t1_loop.trips) : Fin 3 → Nat :=
  let c0_i32 : BitVec 32 := 0#32
  let c1_i32 : BitVec 32 := 1#32
  let arg5 : BitVec 32 := Scf.iv c0_i32 c1_i32 k1_t1
  let v245 : Index := Scalar.indexCast arg5
  let c15 : Index := 15#32
  let c0_108 : Index := 0#32
  ![v245.toNat, 15, 0]
def k1_off32 (k1_t1 : Fin k1_t1_loop.trips) : Fin 3 → Nat :=
  let c0_i32 : BitVec 32 := 0#32
  let c1_i32 : BitVec 32 := 1#32
  let arg5 : BitVec 32 := Scf.iv c0_i32 c1_i32 k1_t1
  let v249 : Index := Scalar.indexCast arg5
  let c0_109 : Index := 0#32
  let c15_110 : Index := 15#32
  ![v249.toNat, 0, 15]
def k1_off33 (k1_t1 : Fin k1_t1_loop.trips) : Fin 2 → Nat :=
  let c0_i32 : BitVec 32 := 0#32
  let c1_i32 : BitVec 32 := 1#32
  let arg5 : BitVec 32 := Scf.iv c0_i32 c1_i32 k1_t1
  let v266 : Index := Scalar.indexCast arg5
  let c0_119 : Index := 0#32
  ![v266.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S512x512x4x4_S512x8192 : S512x512x4x4.ShapeCasts S512x8192
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S512x512_S512x512 : S512x512.ShapeCasts S512x512
  shapeCasts_S512x1024_S512x64x16 : S512x1024.ShapeCasts S512x64x16
  transposes_S512x64x16_S64x16x512_1_2_0 : S512x64x16.Transposes [1, 2, 0] S64x16x512
  transposes_S512x64x16_S64x512x16_1_0_2 : S512x64x16.Transposes [1, 0, 2] S64x512x16
  h_S1x1x512 : 0 < S1x1x512.numel
  shapeCasts_S1x1x512_S512 : S1x1x512.ShapeCasts S512
  shapeCasts_S512_S1x512 : S512.ShapeCasts S1x512
  h_S1x512x1 : 0 < S1x512x1.numel
  shapeCasts_S1x512x1_S512x1 : S1x512x1.ShapeCasts S512x1
  broadcasts_S512x1_S512x512 : S512x1.Broadcasts S512x512
  broadcasts_S1x512_S512x512 : S1x512.Broadcasts S512x512
  reduces_S512x512_S512 : S512x512.Reduces [1] S512
  h_S1x512 : 0 < S1x512.numel
  shapeCasts_S1x512_S512 : S1x512.ShapeCasts S512
  transposes_S64x512_S512x64_1_0 : S64x512.Transposes [1, 0] S512x64
  concatenates_S512x8192_S512x64_S512x8256_d1 : Shape.Concatenates [S512x8192, S512x64] S512x8256 1
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x8192.size a
  hwx0_0 : ∀ i : grid0.Coords, EltTy.bits .f32 = 32 ∨ (Rect.block (s := S512x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x1024.size a
  hwx0_1 : ∀ i : grid0.Coords, EltTy.bits .f32 = 32 ∨ (Rect.block (s := S8192x1024) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x1024.size a
  hwx0_2 : ∀ i : grid0.Coords, EltTy.bits .f32 = 32 ∨ (Rect.block (s := S512x1024) S512x512.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x1x512.size a ≤ S8x16x512.size a
  k1_off2_inb : ∀ k1_t1 : Fin k1_t1_loop.trips, ∀ a, (k1_off2 k1_t1) a + S1x512x1.size a ≤ S8x512x16.size a
  k1_off3_inb : ∀ k1_t1 : Fin k1_t1_loop.trips, ∀ a, (k1_off3 k1_t1) a + S1x1x512.size a ≤ S8x16x512.size a
  k1_off4_inb : ∀ k1_t1 : Fin k1_t1_loop.trips, ∀ a, (k1_off4 k1_t1) a + S1x512x1.size a ≤ S8x512x16.size a
  k1_off5_inb : ∀ k1_t1 : Fin k1_t1_loop.trips, ∀ a, (k1_off5 k1_t1) a + S1x1x512.size a ≤ S8x16x512.size a
  k1_off6_inb : ∀ k1_t1 : Fin k1_t1_loop.trips, ∀ a, (k1_off6 k1_t1) a + S1x512x1.size a ≤ S8x512x16.size a
  k1_off7_inb : ∀ k1_t1 : Fin k1_t1_loop.trips, ∀ a, (k1_off7 k1_t1) a + S1x1x512.size a ≤ S8x16x512.size a
  k1_off8_inb : ∀ k1_t1 : Fin k1_t1_loop.trips, ∀ a, (k1_off8 k1_t1) a + S1x512x1.size a ≤ S8x512x16.size a
  k1_off9_inb : ∀ k1_t1 : Fin k1_t1_loop.trips, ∀ a, (k1_off9 k1_t1) a + S1x1x512.size a ≤ S8x16x512.size a
  k1_off10_inb : ∀ k1_t1 : Fin k1_t1_loop.trips, ∀ a, (k1_off10 k1_t1) a + S1x512x1.size a ≤ S8x512x16.size a
  k1_off11_inb : ∀ k1_t1 : Fin k1_t1_loop.trips, ∀ a, (k1_off11 k1_t1) a + S1x1x512.size a ≤ S8x16x512.size a
  k1_off12_inb : ∀ k1_t1 : Fin k1_t1_loop.trips, ∀ a, (k1_off12 k1_t1) a + S1x512x1.size a ≤ S8x512x16.size a
  k1_off13_inb : ∀ k1_t1 : Fin k1_t1_loop.trips, ∀ a, (k1_off13 k1_t1) a + S1x1x512.size a ≤ S8x16x512.size a
  k1_off14_inb : ∀ k1_t1 : Fin k1_t1_loop.trips, ∀ a, (k1_off14 k1_t1) a + S1x512x1.size a ≤ S8x512x16.size a
  k1_off15_inb : ∀ k1_t1 : Fin k1_t1_loop.trips, ∀ a, (k1_off15 k1_t1) a + S1x1x512.size a ≤ S8x16x512.size a
  k1_off16_inb : ∀ k1_t1 : Fin k1_t1_loop.trips, ∀ a, (k1_off16 k1_t1) a + S1x512x1.size a ≤ S8x512x16.size a
  k1_off17_inb : ∀ k1_t1 : Fin k1_t1_loop.trips, ∀ a, (k1_off17 k1_t1) a + S1x1x512.size a ≤ S8x16x512.size a
  k1_off18_inb : ∀ k1_t1 : Fin k1_t1_loop.trips, ∀ a, (k1_off18 k1_t1) a + S1x512x1.size a ≤ S8x512x16.size a
  k1_off19_inb : ∀ k1_t1 : Fin k1_t1_loop.trips, ∀ a, (k1_off19 k1_t1) a + S1x1x512.size a ≤ S8x16x512.size a
  k1_off20_inb : ∀ k1_t1 : Fin k1_t1_loop.trips, ∀ a, (k1_off20 k1_t1) a + S1x512x1.size a ≤ S8x512x16.size a
  k1_off21_inb : ∀ k1_t1 : Fin k1_t1_loop.trips, ∀ a, (k1_off21 k1_t1) a + S1x1x512.size a ≤ S8x16x512.size a
  k1_off22_inb : ∀ k1_t1 : Fin k1_t1_loop.trips, ∀ a, (k1_off22 k1_t1) a + S1x512x1.size a ≤ S8x512x16.size a
  k1_off23_inb : ∀ k1_t1 : Fin k1_t1_loop.trips, ∀ a, (k1_off23 k1_t1) a + S1x1x512.size a ≤ S8x16x512.size a
  k1_off24_inb : ∀ k1_t1 : Fin k1_t1_loop.trips, ∀ a, (k1_off24 k1_t1) a + S1x512x1.size a ≤ S8x512x16.size a
  k1_off25_inb : ∀ k1_t1 : Fin k1_t1_loop.trips, ∀ a, (k1_off25 k1_t1) a + S1x1x512.size a ≤ S8x16x512.size a
  k1_off26_inb : ∀ k1_t1 : Fin k1_t1_loop.trips, ∀ a, (k1_off26 k1_t1) a + S1x512x1.size a ≤ S8x512x16.size a
  k1_off27_inb : ∀ k1_t1 : Fin k1_t1_loop.trips, ∀ a, (k1_off27 k1_t1) a + S1x1x512.size a ≤ S8x16x512.size a
  k1_off28_inb : ∀ k1_t1 : Fin k1_t1_loop.trips, ∀ a, (k1_off28 k1_t1) a + S1x512x1.size a ≤ S8x512x16.size a
  k1_off29_inb : ∀ k1_t1 : Fin k1_t1_loop.trips, ∀ a, (k1_off29 k1_t1) a + S1x1x512.size a ≤ S8x16x512.size a
  k1_off30_inb : ∀ k1_t1 : Fin k1_t1_loop.trips, ∀ a, (k1_off30 k1_t1) a + S1x512x1.size a ≤ S8x512x16.size a
  k1_off31_inb : ∀ k1_t1 : Fin k1_t1_loop.trips, ∀ a, (k1_off31 k1_t1) a + S1x1x512.size a ≤ S8x16x512.size a
  k1_off32_inb : ∀ k1_t1 : Fin k1_t1_loop.trips, ∀ a, (k1_off32 k1_t1) a + S1x512x1.size a ≤ S8x512x16.size a
  k1_off33_inb : ∀ k1_t1 : Fin k1_t1_loop.trips, ∀ a, (k1_off33 k1_t1) a + S1x512.size a ≤ S8x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16x512.size a ≤ S64x16x512.size a
  hwx1_0 : ∀ i : grid1.Coords, EltTy.bits .f32 = 32 ∨ (Rect.block (s := S64x16x512) S8x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x16.size a ≤ S64x512x16.size a
  hwx1_1 : ∀ i : grid1.Coords, EltTy.bits .f32 = 32 ∨ (Rect.block (s := S64x512x16) S8x512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S64x512.size a
  hwx1_2 : ∀ i : grid1.Coords, EltTy.bits .f32 = 32 ∨ (Rect.block (s := S64x512) S8x512.size (cc1_transform_2 i) (hinb1_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S8x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x512x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512x4x4 : Shape := ⟨4, ![512, 512, 4, 4]⟩
abbrev S8192x1024 : Shape := ⟨2, ![8192, 1024]⟩
abbrev S512x8192 : Shape := ⟨2, ![512, 8192]⟩
abbrev S512x1024 : Shape := ⟨2, ![512, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x8256 : Shape := ⟨2, ![512, 8256]⟩

abbrev nBuf : Space → Nat
  | .hbm => 18
  | .vmem => 0
  | .smem => 0
  | _ => 0

abbrev bufTy : (tb : Table) → Fin (tcTables nBuf tb) → BufTy
  | .hbm, ⟨0, _⟩ => ⟨S512x512x4x4, .f32⟩
  | .hbm, ⟨1, _⟩ => ⟨S8192x1024, .f32⟩
  | .hbm, ⟨2, _⟩ => ⟨S512x8192, .f32⟩
  | .hbm, ⟨3, _⟩ => ⟨S512x1024, .f32⟩
  | .hbm, ⟨4, _⟩ => ⟨S512x64x16, .f32⟩
  | .hbm, ⟨5, _⟩ => ⟨S512x1x64x16, .f32⟩
  | .hbm, ⟨6, _⟩ => ⟨S1x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S512x8256, .f32⟩
  | _, _ => ⟨S512x512x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S512x512x4x4_S512x8192 : S512x512x4x4.ShapeCasts S512x8192
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  concatenates_S512x8192_S512x64_S512x8256_d1 : Shape.Concatenates [S512x8192, S512x64] S512x8256 1
  dot_S512x8192_S8192x1024_S512x1024_1_0_0_1_n_n_wf : DotDims.WF S512x8192 S8192x1024 S512x1024 [1] [0] [0] [1] [] []

variable [Facts₀]

def dot_S512x8192_S8192x1024_S512x1024_1_0_0_1_n_n : DotDims S512x8192 S8192x1024 S512x1024 where
  lhsContracting := [1]
  rhsContracting := [0]
  lhsNonContracting := [0]
  rhsNonContracting := [1]
  lhsBatch := []
  rhsBatch := []
  wf := dot_S512x8192_S8192x1024_S512x1024_1_0_0_1_n_n_wf

class Facts : Prop extends Facts₀ where

variable [Facts]
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.MatPay.lean ====
/-
  The two values the matrix body stores, read at one entry of the 512 x 512 staging block, over the extended reals.

  The reset value is zero at every entry.  The update value at entry (r, q) is the entry the block held before plus
  the sum, over the 1024 contracted positions k of this step, of the left tile at (r, k) times the right tile at
  (k, q): narrowing both operands to the 16-bit format is the identity on the extended reals, the product is taken
  into a zero accumulator, and the two casts to the block's own shape move nothing.
-/
import proofs.«113469_j1580547969899_2_alg».proof.Proof.Gen.KernelIdeal.Skeleton
import proofs.«113469_j1580547969899_2_alg».proof.Proof.LibTileDot
import Idealize.ShloMosaic.Lib.Pipeline.Value

noncomputable section

namespace Cert.KernelIdeal.MatPay

open Cert.KernelIdeal Cert.KernelIdeal.Gen Idealize.ShloMosaic Idealize.ShloMosaic.ValueIdx

variable {F : FTy → Type} [FloatOps F]

/-- The dimension numbers of the tile product: rows by the contracted axis, times the contracted axis by columns. -/
abbrev tileDot : DotDims S512x1024 S1024x512 S512x512 := dot_S512x1024_S1024x512_S512x512_1_0_0_1_n_n

/-- The left operand's row is the output's row. -/
theorem lhs_row (i : S512x512.Idx) (p : tileDot.contr.Idx) : (tileDot.lhsIdx i p 0).val = (i 0).val := by
  unfold DotDims.lhsIdx
  rw [dif_neg (show ¬(0 : Fin S512x1024.rank) ∈ tileDot.lhsBatch by decide),
    dif_pos (show (0 : Fin S512x1024.rank) ∈ tileDot.lhsNonContracting by decide)]
  rfl

/-- The left operand's column is the contracted position. -/
theorem lhs_col (i : S512x512.Idx) (p : tileDot.contr.Idx) : (tileDot.lhsIdx i p 1).val = (p ⟨0, by decide⟩).val :=
  tileDot.lhsIdx_val_of_single rfl i p

/-- The right operand's row is the contracted position. -/
theorem rhs_row (i : S512x512.Idx) (p : tileDot.contr.Idx) : (tileDot.rhsIdx i p 0).val = (p ⟨0, by decide⟩).val :=
  tileDot.rhsIdx_val_of_single rfl i p

/-- The right operand's column is the output's column. -/
theorem rhs_col (i : S512x512.Idx) (p : tileDot.contr.Idx) : (tileDot.rhsIdx i p 1).val = (i 1).val := by
  unfold DotDims.rhsIdx
  rw [dif_neg (show ¬(1 : Fin S1024x512.rank) ∈ tileDot.rhsBatch by decide),
    dif_pos (show (1 : Fin S1024x512.rank) ∈ tileDot.rhsNonContracting by decide)]
  rfl

/-- At output entry (r, q) and contracted position k the left operand is read at (r, k). -/
theorem lhs_at (r q : Fin 512) (k : Fin 1024) :
    tileDot.lhsIdx (ix2 r q) ((contrEquiv1 tileDot 1024 rfl rfl).symm k) = ix2 r k :=
  funext fun a => Fin.ext (by
    have hk := contrEquiv1_symm_val tileDot 1024 rfl rfl k
    match a with
    | ⟨0, _⟩ => exact lhs_row _ _
    | ⟨1, _⟩ => exact (lhs_col _ _).trans hk)

/-- At output entry (r, q) and contracted position k the right operand is read at (k, q). -/
theorem rhs_at (r q : Fin 512) (k : Fin 1024) :
    tileDot.rhsIdx (ix2 r q) ((contrEquiv1 tileDot 1024 rfl rfl).symm k) = ix2 k q :=
  funext fun a => Fin.ext (by
    have hk := contrEquiv1_symm_val tileDot 1024 rfl rfl k
    match a with
    | ⟨0, _⟩ => exact (rhs_row _ _).trans hk
    | ⟨1, _⟩ => exact rhs_col _ _)

/-- The update value as one expression of the two tiles and the block's previous contents, at any float values:
    the previous contents plus the product of the narrowed tiles into the zero accumulator. -/
theorem pay2_eq (x0 : Vec F S512x1024 .f32) (x1 : Vec F S1024x512 .f32) (acc : Vec F S512x512 .f32) :
    k0_pay2 x0 x1 acc
      = addf acc (matmul tileDot none (truncf .bf16 x0 bitsLt_bf16_f32) (truncf .bf16 x1 bitsLt_bf16_f32)
          (constant S512x512 .f32 0x00000000#32)) := by
  unfold k0_pay2
  simp only [shapeCast_self]

/-- The reset value is zero at every entry. -/
theorem pay1_at (r q : Fin 512) : k0_pay1 (F := Ideal) (ix2 r q) = 0 := by
  unfold k0_pay1
  exact Ideal.ofBits_zero_f32

/-- The update value at entry (r, q): the previous entry plus the sum over this step's 1024 contracted positions. -/
theorem pay2_at (x0 : Vec Ideal S512x1024 .f32) (x1 : Vec Ideal S1024x512 .f32) (acc : Vec Ideal S512x512 .f32)
    (r q : Fin 512) :
    k0_pay2 (F := Ideal) x0 x1 acc (ix2 r q) = acc (ix2 r q) + ∑ k : Fin 1024, x0 (ix2 r k) * x1 (ix2 k q) := by
  rw [pay2_eq]
  refine congrArg (acc (ix2 r q) + ·) ?_
  exact Cert.LibTileDot.matmul_zero_at tileDot none 1024 rfl rfl _ _ (ix2 r q) (fun k => ix2 r k) (fun k => ix2 k q)
    (lhs_at r q) (rhs_at r q)

end Cert.KernelIdeal.MatPay

end
-- ==== Proof.MatPieces.lean ====
/-
  What one run of the matrix body leaves in the 512 x 512 staging block, for either case of its one test.

  At a step that is not the first of its column block the body makes one store covering the block: the update value
  of the two tiles and of what the block held.  At the first step it first stores the reset value over the whole block,
  reads the block back, and then makes the same covering store: the update value of the two tiles and the reset value.
  Both hold at any float values; the loads read whole buffers, so each loaded value is the buffer's contents.
-/
import proofs.«113469_j1580547969899_2_alg».proof.Proof.FrameKernelIdeal
import Idealize.ShloMosaic.Lib.Pipeline.Value
import Idealize.ShloMosaic.Lib.Tactic

noncomputable section

namespace Cert.KernelIdeal.MatPieces

open Cert.KernelIdeal Cert.KernelIdeal.Gen Cert.KernelIdeal.GenP
open Idealize.ShloMosaic Idealize.ShloMosaic.TcCoe Idealize.SL.Sem Idealize.ShloMosaic.Tactic

variable {F : FTy → Type} [FloatOps F]

/-- The zero offsets of a whole-buffer access. -/
theorem zero_offsets : (![0, 0] : Fin 2 → Nat) = fun _ => 0 := funext fun a => by fin_cases a <;> rfl

/-- A later step: the block holding xo ends holding the update value of the tiles x0, x1 and xo. -/
theorem later_step (c : Dev nD) (i : grid0.Coords) (a2 : Memref sig .tc .vmem S512x1024 .f32) (h2 : a2.IsWhole)
    (a3 : Memref sig .tc .vmem S1024x512 .f32) (h3 : a3.IsWhole) (a4 : Memref sig .tc .vmem S512x512 .f32)
    (h4 : a4.IsWhole) (hc : ¬cond0_0 i) (x0 : Vec F S512x1024 .f32) (x1 : Vec F S1024x512 .f32)
    (xo : Vec F S512x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero (S := S512x512) zero_offsets]
  simp only [View.readAt_eq_ld, h2.read_unread, h3.read_unread, h4.read_unread,
    View.ld_unit_zero (S := S512x1024) zero_offsets, View.ld_unit_zero (S := S1024x512) zero_offsets,
    View.ld_unit_zero (S := S512x512) zero_offsets]

/-- A first step: the block ends holding the update value of the tiles x0, x1 and the reset value. -/
theorem first_step (c : Dev nD) (i : grid0.Coords) (a2 : Memref sig .tc .vmem S512x1024 .f32) (h2 : a2.IsWhole)
    (a3 : Memref sig .tc .vmem S1024x512 .f32) (h3 : a3.IsWhole) (a4 : Memref sig .tc .vmem S512x512 .f32)
    (h4 : a4.IsWhole) (hc : cond0_0 i) (x0 : Vec F S512x1024 .f32) (x1 : Vec F S1024x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S512x512) zero_offsets,
    View.readCov_unit_zero (S := S512x512) _ zero_offsets]
  simp only [View.readAt_eq_ld, h2.read_unread, h3.read_unread,
    View.ld_unit_zero (S := S512x1024) zero_offsets, View.ld_unit_zero (S := S1024x512) zero_offsets]

end Cert.KernelIdeal.MatPieces

end
-- ==== Proof.MatBlocks.lean ====
/-
  Where the three windows of the blocked product sit in their arrays.

  The grid has 16 points; point t has column-block number t / 8 (0 or 1) and step number t % 8 (0 to 7).  At point t
  the left window is the 512 x 1024 tile of the 512 x 8192 array at columns 1024 (t % 8) onwards; the right window is
  the 1024 x 512 tile of the 8192 x 1024 array at rows 1024 (t % 8) and columns 512 (t / 8) onwards; the output window
  is the 512 x 512 tile of the 512 x 1024 array at columns 512 (t / 8) onwards.  So a tile's entry is read from its
  array at (tile number) x (tile extent) + (the entry's own coordinate) on each axis.  Every column n of the output
  array lies in the tile of the point 8 (n / 512) + 7, a point after which the tile is written back.
-/
import proofs.«113469_j1580547969899_2_alg».proof.Proof.Gen.KernelIdeal.Points
import proofs.«113469_j1580547969899_2_alg».proof.Proof.Gen.KernelIdeal.Launch
import Idealize.ShloMosaic.Lib.Pipeline.Value
import Idealize.ShloMosaic.Lib.ValueIdx

noncomputable section

namespace Cert.KernelIdeal.MatBlocks

open Cert.KernelIdeal Cert.KernelIdeal.Gen Idealize.ShloMosaic Idealize.ShloMosaic.ValueIdx

variable {F : FTy → Type} [FloatOps F]

/-- The tile numbers of the three windows at every point, decided once over the 16 points. -/
theorem tile_numbers : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- The left tile at point t, entry (r, k): the array at (r, 1024 (t % 8) + k). -/
theorem left_at (X : S512x8192.Idx → Elt F .f32) (t : Fin cfg0.N) (r : Fin 512) (k : Fin 1024) (K : Fin 8192)
    (hK : K.val = 1024 * (t.val % 8) + k.val) :
    ((cfg0.win 0).blk t).view.read (Elt F) X (ix2 r k) = X (ix2 r K) := by
  obtain ⟨e0, e1, -, -, -, -⟩ := tile_numbers t
  rw [View.read_apply]
  show X _ = X _
  refine congrArg X ?_
  funext a
  apply Fin.ext
  match a with
  | ⟨0, _⟩ => show win0_0.index t (0 : Fin 2) * 512 + 1 * r.val = r.val; rw [e0]; omega
  | ⟨1, _⟩ => show win0_0.index t (1 : Fin 2) * 1024 + 1 * k.val = K.val; rw [e1, hK]; omega

/-- The right tile at point t, entry (k, q): the array at (1024 (t % 8) + k, 512 (t / 8) + q). -/
theorem right_at (X : S8192x1024.Idx → Elt F .f32) (t : Fin cfg0.N) (k : Fin 1024) (q : Fin 512) (K : Fin 8192)
    (n : Fin 1024) (hK : K.val = 1024 * (t.val % 8) + k.val) (hn : n.val = 512 * (t.val / 8) + q.val) :
    ((cfg0.win 1).blk t).view.read (Elt F) X (ix2 k q) = X (ix2 K n) := by
  obtain ⟨-, -, e0, e1, -, -⟩ := tile_numbers t
  rw [View.read_apply]
  show X _ = X _
  refine congrArg X ?_
  funext a
  apply Fin.ext
  match a with
  | ⟨0, _⟩ => show win0_1.index t (0 : Fin 2) * 1024 + 1 * k.val = K.val; rw [e0, hK]; omega
  | ⟨1, _⟩ => show win0_1.index t (1 : Fin 2) * 512 + 1 * q.val = n.val; rw [e1, hn]; omega

/-- The output tile at point t, entry (r, q): the array at (r, 512 (t / 8) + q). -/
theorem out_at (X : S512x1024.Idx → Elt F .f32) (t : Fin cfg0.N) (r q : Fin 512) (n : Fin 1024)
    (hn : n.val = 512 * (t.val / 8) + q.val) :
    ((cfg0.win 2).blk t).view.read (Elt F) X (ix2 r q) = X (ix2 r n) := by
  obtain ⟨-, -, -, -, e0, e1⟩ := tile_numbers t
  rw [View.read_apply]
  show X _ = X _
  refine congrArg X ?_
  funext a
  apply Fin.ext
  match a with
  | ⟨0, _⟩ => show win0_2.index t (0 : Fin 2) * 512 + 1 * r.val = r.val; rw [e0]; omega
  | ⟨1, _⟩ => show win0_2.index t (1 : Fin 2) * 512 + 1 * q.val = n.val; rw [e1, hn]; omega

/-- An index of the output array is in point t's tile iff each coordinate is in the tile's range on its axis. -/
theorem mem_out_tile (t : Fin cfg0.N) (i : S512x1024.Idx) :
    i ∈ ((cfg0.win 2).blk t).view.set ↔ ∀ a : Fin 2,
      win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- Every entry of the output array is in the tile of a point after which the tile is written back: column n is
    in the tile of point 8 (n / 512) + 7. -/
theorem out_cover (i : S512x1024.Idx) :
    ∃ t : Fin cfg0.N, (cfg0.win 2).flush t = true ∧ i ∈ ((cfg0.win 2).blk t).view.set := by
  have h0 : (i 0).val < 512 := idx2_lt0 i
  have h1 : (i 1).val < 1024 := idx2_lt1 i
  obtain ⟨t, ht⟩ : ∃ t : Fin cfg0.N, t.val = 8 * ((i 1).val / 512) + 7 :=
    ⟨⟨8 * ((i 1).val / 512) + 7, by rw [show cfg0.N = 16 from N_0]; omega⟩, rfl⟩
  obtain ⟨-, -, -, -, e0, e1⟩ := tile_numbers t
  refine ⟨t, (flush0_2 t).mpr (by rw [ht]; omega), ?_⟩
  rw [mem_out_tile]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 512 ≤ (i 1).val ∧ (i 1).val < win0_2.index t (1 : Fin 2) * 512 + 512
    rw [e1, ht]; omega

end Cert.KernelIdeal.MatBlocks

end
-- ==== Proof.LibSumBlocks.lean ====
/-
  Sums taken block after block.  A finite family `g : Fin n → M` is read at any natural number (zero outside its
  range), so that a stretch of `B` consecutive terms starting at `B * k` is a sum over `range B` of one function of
  the natural numbers; then the first `B * k` terms plus the next `B` are the first `B * (k + 1)`, in any
  commutative additive monoid (on the extended reals too: only associativity is used).
-/
import Mathlib.Algebra.BigOperators.Fin
import Mathlib.Algebra.BigOperators.Intervals

namespace Cert.LibSumBlocks

variable {M : Type*} [AddCommMonoid M]

/-- A finite family read at a natural number: its entry inside the range, zero outside. -/
def ext {n : ℕ} (g : Fin n → M) (d : ℕ) : M := if h : d < n then g ⟨d, h⟩ else 0

theorem ext_of_lt {n : ℕ} (g : Fin n → M) (d : ℕ) (h : d < n) : ext g d = g ⟨d, h⟩ := dif_pos h

/-- The whole family's sum is the sum of its readings over `range n`. -/
theorem sum_univ_eq_range {n : ℕ} (g : Fin n → M) : ∑ k : Fin n, g k = ∑ d ∈ Finset.range n, ext g d := by
  rw [Finset.sum_range]
  exact Finset.sum_congr rfl fun k _ => (ext_of_lt g k.val k.isLt).symm

/-- A block of `B` terms whose `d'`-th term is the family's entry `B * k + d'` is the sum of the readings there. -/
theorem block_eq_range {n : ℕ} (g : Fin n → M) (B k : ℕ) (h : Fin B → M)
    (hh : ∀ d' : Fin B, ∃ hlt : B * k + d'.val < n, h d' = g ⟨B * k + d'.val, hlt⟩) :
    ∑ d' : Fin B, h d' = ∑ d ∈ Finset.range B, ext g (B * k + d) := by
  rw [Finset.sum_range]
  refine Finset.sum_congr rfl fun d' _ => ?_
  obtain ⟨hlt, e⟩ := hh d'
  rw [e, ext_of_lt g _ hlt]

/-- The first `B * k` terms, then the next `B`: the first `B * (k + 1)`. -/
theorem prefix_add_block (f : ℕ → M) (B k : ℕ) :
    (∑ d ∈ Finset.range (B * k), f d) + (∑ d ∈ Finset.range B, f (B * k + d))
      = ∑ d ∈ Finset.range (B * (k + 1)), f d := by
  rw [Nat.mul_succ, Finset.sum_range_add]

end Cert.LibSumBlocks
-- ==== Proof.Spec.lean ====
/-
  The mathematics both programs compute, stated once over the extended reals.

  With x the 512 x 8192 input (the reshaped first argument) and T the 8192 x 1024 second argument,
  let M = x T.  The 1024 columns of M are 64 groups of 16 channels: column 16 b + c is channel c of
  group b.  For a group b and two rows i, j the distance is the L1 distance over the group's 16 channels,
  d_b(i, j) = sum over c of |M(i, 16 b + c) - M(j, 16 b + c)|, and the result entry for (i, b) is
  sum over j of exp(-d_b(i, j)).  Nothing here is assumed finite: every definition is a finite sum or a
  composition of total operations of the extended reals.
-/
import Idealize.ShloMosaic.PureOps.Ideal
import Idealize.ShloMosaic.Lib.ValueIdx

noncomputable section

namespace Cert.Spec

open Idealize.ShloMosaic Idealize.ShloMosaic.ValueIdx

/-- The shape of x and the shape of T. -/
abbrev SX : Shape := ⟨2, ![512, 8192]⟩
abbrev ST : Shape := ⟨2, ![8192, 1024]⟩

/-- Entry (r, n) of the product x T: the sum over the 8192 contracted positions. -/
def prod (x : SX.Idx → EReal) (T : ST.Idx → EReal) (r : Fin 512) (n : Fin 1024) : EReal :=
  ∑ k : Fin 8192, x (ix2 r k) * T (ix2 k n)

/-- Channel c of group b as one of the 1024 columns: 16 b + c. -/
def chan (b : Fin 64) (c : Fin 16) : Fin 1024 := ⟨b.val * 16 + c.val, by omega⟩

/-- The absolute value on the extended reals, as both programs compute it: max(z, -z). -/
def absE (z : EReal) : EReal := max z (-z)

/-- The L1 distance between rows i and j of M over the 16 channels of group b. -/
def dist (M : Fin 512 → Fin 1024 → EReal) (b : Fin 64) (i j : Fin 512) : EReal :=
  ∑ c : Fin 16, absE (M i (chan b c) - M j (chan b c))

/-- The result entry for row i and group b: the sum over all rows j of exp(-distance(i, j)). -/
def kern (M : Fin 512 → Fin 1024 → EReal) (b : Fin 64) (i : Fin 512) : EReal :=
  ∑ j : Fin 512, Ideal.exp (-(dist M b i j))

end Cert.Spec

end
-- ==== Proof.MatAccum.lean ====
/-
  What the 512 x 512 staging block of the blocked product holds after each grid point.

  Fix the two arrays x (512 x 8192) and T (8192 x 1024) as the region finds them, an entry (r, n) of the product, and
  the 8192 terms x(r, k) T(k, n) of its contraction.  Point t has column block t / 8 and step t % 8.  At a first step
  the body leaves, at entry (r, q) of the block, zero plus the tile product; at a later step, what the block held plus
  the tile product.  The tile product at step s is the sum of the 1024 consecutive terms from 1024 s on, for the
  column n = 512 (t / 8) + q.  So, by induction on the point, after point t the block's entry (r, q) is the sum of
  the first 1024 (t % 8 + 1) terms: the first 1024 s terms plus the next 1024 are the first 1024 (s + 1).
-/
import proofs.«113469_j1580547969899_2_alg».proof.Proof.FrameKernelIdeal
import proofs.«113469_j1580547969899_2_alg».proof.Proof.MatPay
import proofs.«113469_j1580547969899_2_alg».proof.Proof.MatPieces
import proofs.«113469_j1580547969899_2_alg».proof.Proof.MatBlocks
import proofs.«113469_j1580547969899_2_alg».proof.Proof.LibSumBlocks
import proofs.«113469_j1580547969899_2_alg».proof.Proof.Spec

noncomputable section

namespace Cert.KernelIdeal.MatAccum

open Cert.KernelIdeal Cert.KernelIdeal.Gen Cert.KernelIdeal.GenP
open Idealize.ShloMosaic Idealize.ShloMosaic.TcCoe Idealize.SL.Sem Idealize.ShloMosaic.ValueIdx

variable (V : (c : Dev nD) → (b : Ref sig .tc) → Buf (Elt Ideal) ((c : Thread nD τ).loc b))

/-- Term k of the contraction for entry (r, n) of the product of x and T. -/
def term (x : Cert.Spec.SX.Idx → EReal) (T : Cert.Spec.ST.Idx → EReal) (r : Fin 512) (n : Fin 1024) (k : Fin 8192) : EReal :=
  x (ix2 r k) * T (ix2 k n)

/-- The product's entry is the sum of its 8192 terms, read over the natural numbers below 8192. -/
theorem prod_eq_range (x : Cert.Spec.SX.Idx → EReal) (T : Cert.Spec.ST.Idx → EReal) (r : Fin 512) (n : Fin 1024) :
    Cert.Spec.prod x T r n = ∑ d ∈ Finset.range 8192, Cert.LibSumBlocks.ext (term x T r n) d :=
  Cert.LibSumBlocks.sum_univ_eq_range (term x T r n)

/-- The left tile and the right tile the body is given at point t, at their literal shapes. -/
abbrev tileL (c : Dev nD) (t : Fin cfg0.N) : Vec Ideal S512x1024 .f32 := iblk0 V c 0 t
abbrev tileR (c : Dev nD) (t : Fin cfg0.N) : Vec Ideal S1024x512 .f32 := iblk0 V c 1 t

/-- The left tile at point t is x's columns from 1024 (t % 8) on. -/
theorem tile_left (c : Dev nD) (t : Fin cfg0.N) (r : Fin 512) (k : Fin 1024) (K : Fin 8192)
    (hK : K.val = 1024 * (t.val % 8) + k.val) :
    tileL V c t (ix2 r k) = (V c main_v0 : S512x8192.Idx → Elt Ideal .f32) (ix2 r K) :=
  MatBlocks.left_at (F := Ideal) (V c main_v0) t r k K hK

/-- The right tile at point t is T's rows from 1024 (t % 8) on and columns from 512 (t / 8) on. -/
theorem tile_right (c : Dev nD) (t : Fin cfg0.N) (k : Fin 1024) (q : Fin 512) (K : Fin 8192) (n : Fin 1024)
    (hK : K.val = 1024 * (t.val % 8) + k.val) (hn : n.val = 512 * (t.val / 8) + q.val) :
    tileR V c t (ix2 k q) = (V c main_arg1 : S8192x1024.Idx → Elt Ideal .f32) (ix2 K n) :=
  MatBlocks.right_at (F := Ideal) (V c main_arg1) t k q K n hK hn

/-- The tile product at point t, entry (r, q), is the 1024 consecutive terms from 1024 (t % 8) on of the contraction
    for column 512 (t / 8) + q. -/
theorem tile_sum (c : Dev nD) (t : Fin cfg0.N) (r q : Fin 512) (n : Fin 1024) (hn : n.val = 512 * (t.val / 8) + q.val) :
    ∑ k : Fin 1024, tileL V c t (ix2 r k) * tileR V c t (ix2 k q)
      = ∑ d ∈ Finset.range 1024,
          Cert.LibSumBlocks.ext (term (V c main_v0) (V c main_arg1) r n) (1024 * (t.val % 8) + d) := by
  refine Cert.LibSumBlocks.block_eq_range (term (V c main_v0) (V c main_arg1) r n) 1024 (t.val % 8) _ fun k => ?_
  have hlt : 1024 * (t.val % 8) + k.val < 8192 := by have := k.isLt; omega
  refine ⟨hlt, ?_⟩
  rw [tile_left V c t r k ⟨_, hlt⟩ rfl, tile_right V c t k q ⟨_, hlt⟩ n rfl hn]
  rfl

/-- A first step leaves zero plus the tile product, that is the tile product. -/
theorem at_first (c : Dev nD) (t : Fin cfg0.N) (h0 : t.val % 8 = 0) (r q : Fin 512) :
    outsAt0 V c t.val t.isLt (ix2 r q)
      = ∑ k : Fin 1024, tileL V c t (ix2 r k) * tileR V c t (ix2 k q) := by
  rw [outsAt0_A V c t h0]
  refine (congrFun (MatPieces.first_step (F := Ideal) c (grid0.coords t) (ms0_0 t) (hs0_0 t) (ms0_1 t) (hs0_1 t)
    (ms0_2 t) (hs0_2 t) ((hcond0_0 t).mpr h0) (tileL V c t) (tileR V c t)) (ix2 r q)).trans ?_
  refine (MatPay.pay2_at (tileL V c t) (tileR V c t) (k0_pay1 (F := Ideal)) r q).trans ?_
  rw [MatPay.pay1_at, zero_add]

/-- A later step leaves what the point before left plus the tile product. -/
theorem at_later (c : Dev nD) (t : Fin cfg0.N) (h0 : ¬t.val % 8 = 0) (r q : Fin 512) :
    outsAt0 V c t.val t.isLt (ix2 r q)
      = outsAt0 V c (t.val - 1) (Nat.lt_of_le_of_lt (Nat.sub_le _ _) t.isLt) (ix2 r q)
        + ∑ k : Fin 1024, tileL V c t (ix2 r k) * tileR V c t (ix2 k q) := by
  rw [outsAt0_B V c t h0]
  refine (congrFun (MatPieces.later_step (F := Ideal) c (grid0.coords t) (ms0_0 t) (hs0_0 t) (ms0_1 t) (hs0_1 t)
    (ms0_2 t) (hs0_2 t) (fun h => h0 ((hcond0_0 t).mp h)) (tileL V c t) (tileR V c t)
    (outsAt0 V c (t.val - 1) (Nat.lt_of_le_of_lt (Nat.sub_le _ _) t.isLt))) (ix2 r q)).trans ?_
  exact MatPay.pay2_at (tileL V c t) (tileR V c t)
    (outsAt0 V c (t.val - 1) (Nat.lt_of_le_of_lt (Nat.sub_le _ _) t.isLt)) r q

/-- After a first step the entry is the first 1024 terms. -/
theorem prefix_first (c : Dev nD) (t : Fin cfg0.N) (h0 : t.val % 8 = 0) (r q : Fin 512) (n : Fin 1024)
    (hn : n.val = 512 * (t.val / 8) + q.val) :
    outsAt0 V c t.val t.isLt (ix2 r q)
      = ∑ d ∈ Finset.range (1024 * (t.val % 8 + 1)), Cert.LibSumBlocks.ext (term (V c main_v0) (V c main_arg1) r n) d := by
  rw [← Cert.LibSumBlocks.prefix_add_block _ 1024 (t.val % 8)]
  refine (at_first V c t h0 r q).trans ((tile_sum V c t r q n hn).trans ?_)
  rw [h0, Nat.mul_zero, Finset.sum_range_zero, zero_add]

/-- After a later step the entry is one more block of 1024 terms than after the point before. -/
theorem prefix_later (c : Dev nD) (t : Fin cfg0.N) (h0 : ¬t.val % 8 = 0) (r q : Fin 512) (n : Fin 1024)
    (hn : n.val = 512 * (t.val / 8) + q.val)
    (ih : outsAt0 V c (t.val - 1) (Nat.lt_of_le_of_lt (Nat.sub_le _ _) t.isLt) (ix2 r q)
      = ∑ d ∈ Finset.range (1024 * ((t.val - 1) % 8 + 1)), Cert.LibSumBlocks.ext (term (V c main_v0) (V c main_arg1) r n) d) :
    outsAt0 V c t.val t.isLt (ix2 r q)
      = ∑ d ∈ Finset.range (1024 * (t.val % 8 + 1)), Cert.LibSumBlocks.ext (term (V c main_v0) (V c main_arg1) r n) d := by
  rw [← Cert.LibSumBlocks.prefix_add_block _ 1024 (t.val % 8)]
  refine (at_later V c t h0 r q).trans ?_
  rw [ih, tile_sum V c t r q n hn, show (t.val - 1) % 8 + 1 = t.val % 8 from by omega]

/-- After point m the block's entry (r, q) is the sum of the first 1024 (m % 8 + 1) terms of the contraction for
    column n = 512 (m / 8) + q. -/
theorem prefix_at (c : Dev nD) : ∀ (m : ℕ) (hm : m < cfg0.N) (r q : Fin 512) (n : Fin 1024),
    n.val = 512 * (m / 8) + q.val →
    outsAt0 V c m hm (ix2 r q)
      = ∑ d ∈ Finset.range (1024 * (m % 8 + 1)), Cert.LibSumBlocks.ext (term (V c main_v0) (V c main_arg1) r n) d
  | 0, hm, r, q, n, hn => prefix_first V c ⟨0, hm⟩ (Nat.zero_mod 8) r q n hn
  | m + 1, hm, r, q, n, hn => by
    by_cases h0 : (m + 1) % 8 = 0
    · exact prefix_first V c ⟨m + 1, hm⟩ h0 r q n hn
    · exact prefix_later V c ⟨m + 1, hm⟩ h0 r q n hn
        (prefix_at c m (Nat.lt_of_succ_lt hm) r q n (by omega))

end Cert.KernelIdeal.MatAccum

end
-- ==== Proof.MatValue.lean ====
/-
  The output array of the blocked product is the whole product.

  The staging block of column block j is written back once, after the point with step 7; by then its entry (r, q)
  is the sum of the first 1024 x 8 = 8192 terms, all of them, of the contraction for column 512 j + q: the product's
  entry there.  So what that point writes back is the product read through the block's rectangle, and since every
  column lies in one of the two blocks the array ends holding the product at every entry.
-/
import proofs.«113469_j1580547969899_2_alg».proof.Proof.FrameKernelIdeal
import proofs.«113469_j1580547969899_2_alg».proof.Proof.MatAccum
import proofs.«113469_j1580547969899_2_alg».proof.Proof.MatBlocks
import proofs.«113469_j1580547969899_2_alg».proof.Proof.Spec
import Idealize.ShloMosaic.Lib.Pipeline.Value

noncomputable section

namespace Cert.KernelIdeal.MatVal

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product of the two arrays as the region finds them, as contents of the 512 x 1024 output array. -/
def whole (c : Dev nD) : S512x1024.Idx → Elt Ideal .f32 :=
  fun i => Cert.Spec.prod (V c main_v0) (V c main_arg1) (i 0) (i 1)

theorem whole_at (c : Dev nD) (r : Fin 512) (n : Fin 1024) :
    whole V c (ix2 r n) = Cert.Spec.prod (V c main_v0) (V c main_arg1) r n := rfl

/-- Two contents of a 512 x 512 block that agree at every (r, q) are equal. -/
theorem block_ext {α : Type} {f g : S512x512.Idx → α} (h : ∀ r q : Fin 512, f (ix2 r q) = g (ix2 r q)) : f = g :=
  funext fun y => by rw [eq_ix2 y]; exact h _ _

/-- What a point with step 7 writes back is the product read through its block's rectangle. -/
theorem written_back (c : Dev nD) (t : Fin cfg0.N) (hf : (cfg0.win 2).flush t = true) :
    (dat0 V c).flushed 2 t = ((cfg0.win 2).blk t).view.read (Elt Ideal) (whole V c) := by
  have h7 : t.val % 8 = 7 := (flush0_2 t).mp hf
  have hN : t.val < 16 := lt_of_lt_of_eq t.isLt (show cfg0.N = 16 from N_0)
  show (cfg0.win 2).cut (grid0.coords t) ((dat0 V c).after 2 t) = _
  rw [after0_2]
  refine block_ext fun r q => ?_
  have hlt : 512 * (t.val / 8) + q.val < 1024 := by have := q.isLt; omega
  show outsAt0 V c t.val t.isLt (ix2 r q) = _
  refine (MatAccum.prefix_at V c t.val t.isLt r q ⟨_, hlt⟩ rfl).trans ?_
  rw [h7]
  exact (MatAccum.prod_eq_range (V c main_v0) (V c main_arg1) r ⟨_, hlt⟩).symm.trans
    (MatBlocks.out_at (F := Ideal) (whole V c) t r q ⟨_, hlt⟩ rfl).symm

/-- The output array after the region is the product of the two input arrays as the region finds them. -/
theorem final (V : (c : Dev nD) → (b : Ref sig .tc) → Buf (Elt Ideal) ((c : Thread nD τ).loc b)) (c : Dev nD)
    (r : Fin 512) (n : Fin 1024) :
    (dat0 (F := Ideal) V c).arrAt 2 cfg0.N (ix2 r n) = Cert.Spec.prod (V c main_v0) (V c main_arg1) r n :=
  congrFun ((dat0 V c).arrAt_eq_of_cover 2 (whole V c) (written_back V c) fun i => MatBlocks.out_cover i) (ix2 r n)

end Cert.KernelIdeal.MatVal

end
-- ==== Proof.PairTrip.lean ====
/-
  One trip of the loop over the 8 groups of a block, opened once.

  Trip k works on group k of the block: it zeroes a 512 x 512 scratch, then for each of the 16 channels c adds to the
  scratch the array |col_c(p) - row_c(q)|, where row_c is row (k, c, ·) of the block of the first input and col_c is
  column (k, ·, c) of the block of the second; it then writes into row k of the output block the row sums of
  exp(0 - scratch).  Here the value the trip stores is identified with that 16-step recurrence; what the recurrence is
  at an entry is read in the module that follows.
-/
import proofs.«113469_j1580547969899_2_alg».proof.Proof.Gen.KernelIdeal.Loops
import Idealize.ShloMosaic.Lib.Pipeline.FrameBody
import Idealize.ShloMosaic.Lib.Pipeline.Value
import Idealize.ShloMosaic.Lib.Tactic

set_option maxRecDepth 65536

noncomputable section

namespace Cert.KernelIdeal.PairTrip

open Cert.KernelIdeal Cert.KernelIdeal.Gen Idealize.ShloMosaic Idealize.ShloMosaic.TcCoe Idealize.ShloMosaic.Tactic

variable {F : FTy → Type} [FloatOps F]

/-- The offsets of the 16 row loads and of the 16 column loads of trip k, in channel order. -/
def rowOff (k : Fin k1_t1_loop.trips) : Fin 16 → Fin 3 → ℕ := ![k1_off1 k, k1_off3 k, k1_off5 k, k1_off7 k, k1_off9 k, k1_off11 k, k1_off13 k, k1_off15 k, k1_off17 k, k1_off19 k, k1_off21 k, k1_off23 k, k1_off25 k, k1_off27 k, k1_off29 k, k1_off31 k]
def colOff (k : Fin k1_t1_loop.trips) : Fin 16 → Fin 3 → ℕ := ![k1_off2 k, k1_off4 k, k1_off6 k, k1_off8 k, k1_off10 k, k1_off12 k, k1_off14 k, k1_off16 k, k1_off18 k, k1_off20 k, k1_off22 k, k1_off24 k, k1_off26 k, k1_off28 k, k1_off30 k, k1_off32 k]

/-- Channel c's row load starts at (k, c, 0), its column load at (k, 0, c). -/
theorem rowOff_eq : ∀ (k : Fin k1_t1_loop.trips) (c : Fin 16), rowOff k c = ![k.val, c.val, 0] := by decide +kernel
theorem colOff_eq : ∀ (k : Fin k1_t1_loop.trips) (c : Fin 16), colOff k c = ![k.val, 0, c.val] := by decide +kernel
theorem rowInb : ∀ (k : Fin k1_t1_loop.trips) (c : Fin 16) (a : Fin 3), rowOff k c a + S1x1x512.size a ≤ S8x16x512.size a := by decide +kernel
theorem colInb : ∀ (k : Fin k1_t1_loop.trips) (c : Fin 16) (a : Fin 3), colOff k c a + S1x512x1.size a ≤ S8x512x16.size a := by decide +kernel

/-- What the row load and the column load of channel c read, from the contents of the two input blocks. -/
def rowAt (arg1 : Memref sig .tc .vmem S8x16x512 .f32) (X1 : BufTy.Contents (Elt F) arg1.view.ty) (k : Fin k1_t1_loop.trips) (c : Fin 16) : Vec F S1x1x512 .f32 :=
  View.readAt (Elt F) arg1.view (Rect.unit (s := S8x16x512) (rowOff k c) S1x1x512.size (rowInb k c)).toLoadRect X1
def colAt (arg2 : Memref sig .tc .vmem S8x512x16 .f32) (X2 : BufTy.Contents (Elt F) arg2.view.ty) (k : Fin k1_t1_loop.trips) (c : Fin 16) : Vec F S1x512x1 .f32 :=
  View.readAt (Elt F) arg2.view (Rect.unit (s := S8x512x16) (colOff k c) S1x512x1.size (colInb k c)).toLoadRect X2

/-- The scratch after the zeroing and the first n channels. -/
def accum (row : Fin 16 → Vec F S1x1x512 .f32) (col : Fin 16 → Vec F S1x512x1 .f32) : (n : ℕ) → n ≤ 16 → FVec F S512x512 .f32
  | 0, _ => k1_pay2
  | n + 1, h => k1_pay3 (row ⟨n, h⟩) (col ⟨n, h⟩) (accum row col n (Nat.le_of_succ_le h))

/-- The row of 512 values trip k stores: the row sums of exp(0 - scratch) after all 16 channels. -/
theorem trip_row (arg1 : Memref sig .tc .vmem S8x16x512 .f32) (arg2 : Memref sig .tc .vmem S8x512x16 .f32) (arg4 : Memref sig .tc .vmem S512x512 .f32)
    (X1 : BufTy.Contents (Elt F) arg1.view.ty) (X2 : BufTy.Contents (Elt F) arg2.view.ty) (k : Fin k1_t1_loop.trips) :
    trip_k1_t1.sl.r_6 (F := F) arg1 arg2 arg4 X1 X2 k = k1_pay25 (accum (rowAt arg1 X1 k) (colAt arg2 X2 k) 16 le_rfl) := by
  sl_unfold_run_names
  simp only [View.readCov_cons_toLoadRect]
  rfl

end Cert.KernelIdeal.PairTrip

end
-- ==== Proof.PairPieces.lean ====
/-
  From the loop's trips to the output block of one grid point.

  Each of the 8 trips stores ONE row of the [8, 512] output block: trip k stores row k, and the row's values are the
  row sums of exp(0 - scratch) after the trip's 16 channels (the recurrence of the preceding module).  The rows tile the
  block, so the block after the body is the array whose row k is trip k's row, whatever the block held before.
-/
import proofs.«113469_j1580547969899_2_alg».proof.Proof.FrameKernelIdeal
import proofs.«113469_j1580547969899_2_alg».proof.Proof.PairTrip
import Idealize.ShloMosaic.Lib.ValueIdx

set_option maxRecDepth 65536

noncomputable section

namespace Cert.KernelIdeal.PairPieces

open Cert.KernelIdeal Cert.KernelIdeal.Gen Cert.KernelIdeal.GenP Cert.KernelIdeal.PairTrip
open Idealize.ShloMosaic Idealize.ShloMosaic.TcCoe Idealize.ShloMosaic.Tactic Idealize.ShloMosaic.ValueIdx

variable {F : FTy → Type} [FloatOps F]

/-- The loop makes 8 trips. -/
theorem trips_eq : k1_t1_loop.trips = 8 := by decide +kernel

/-- The row trip k stores, as a [1, 512] array. -/
def rowVal (arg1 : Memref sig .tc .vmem S8x16x512 .f32) (arg2 : Memref sig .tc .vmem S8x512x16 .f32)
    (X1 : BufTy.Contents (Elt F) arg1.view.ty) (X2 : BufTy.Contents (Elt F) arg2.view.ty) (k : Fin k1_t1_loop.trips) : FVec F S1x512 .f32 :=
  k1_pay1 (k1_pay25 (accum (rowAt arg1 X1 k) (colAt arg2 X2 k) 16 le_rfl))

/-- The piece trip k writes: its row, at row k of the block. -/
def rowPiece (arg1 : Memref sig .tc .vmem S8x16x512 .f32) (arg2 : Memref sig .tc .vmem S8x512x16 .f32)
    (X1 : BufTy.Contents (Elt F) arg1.view.ty) (X2 : BufTy.Contents (Elt F) arg2.view.ty) (k : Fin k1_t1_loop.trips) : View.Piece (Elt F) S8x512 .f32 :=
  ⟨Rect.unit (s := S8x512) (k1_off33 k) S1x512.size (k1_off33_inb k), rowVal arg1 arg2 X1 X2 k⟩

/-- A trip writes exactly that one piece into the output block, whatever it finds there and in the scratch. -/
theorem trip_piece (𝒱 : Variants) (c : Dev nD) (bd : Option 𝒱.V) (i : grid1.Coords) (arg1 : Memref sig .tc .vmem S8x16x512 .f32) (harg1 : arg1.IsWhole) (arg2 : Memref sig .tc .vmem S8x512x16 .f32) (harg2 : arg2.IsWhole) (arg3 : Memref sig .tc .vmem S8x512 .f32) (harg3 : arg3.IsWhole) (arg4 : Memref sig .tc .vmem S512x512 .f32) (harg4 : arg4.IsWhole)
    (X1 : BufTy.Contents (Elt F) arg1.view.ty) (X2 : BufTy.Contents (Elt F) arg2.view.ty) (k : Fin k1_t1_loop.trips)
    (f3 : BufTy.Contents (Elt F) arg3.view.ty) (f4 : BufTy.Contents (Elt F) arg4.view.ty) :
    (trip_k1_t1 (F := F) 𝒱 c bd i arg1 harg1 arg2 harg2 arg3 harg3 arg4 harg4 X1 X2 k).1 f3 f4 = [rowPiece arg1 arg2 X1 X2 k] := by
  unfold trip_k1_t1
  show [(⟨Rect.unit (s := S8x512) (k1_off33 k) S1x512.size (k1_off33_inb k), k1_pay1 (trip_k1_t1.sl.r_6 (F := F) arg1 arg2 arg4 X1 X2 k)⟩ : View.Piece (Elt F) S8x512 .f32)] = _
  rw [trip_row]
  rfl

/-- So every piece the trips before n have written into the output block is some trip's row piece. -/
theorem pb_pieces (𝒱 : Variants) (c : Dev nD) (bd : Option 𝒱.V) (i : grid1.Coords) (arg1 : Memref sig .tc .vmem S8x16x512 .f32) (harg1 : arg1.IsWhole) (arg2 : Memref sig .tc .vmem S8x512x16 .f32) (harg2 : arg2.IsWhole) (arg3 : Memref sig .tc .vmem S8x512 .f32) (harg3 : arg3.IsWhole) (arg4 : Memref sig .tc .vmem S512x512 .f32) (harg4 : arg4.IsWhole)
    (X1 : BufTy.Contents (Elt F) arg1.view.ty) (X2 : BufTy.Contents (Elt F) arg2.view.ty)
    (G3 : BufTy.Contents (Elt F) arg3.view.ty) (G4 : BufTy.Contents (Elt F) arg4.view.ty) :
    ∀ (n : ℕ) (p : View.Piece (Elt F) S8x512 .f32), p ∈ (pb_k1_t1 (F := F) 𝒱 c bd i arg1 harg1 arg2 harg2 arg3 harg3 arg4 harg4 X1 X2 G3 G4 n).1 →
      ∃ k : Fin k1_t1_loop.trips, p = rowPiece arg1 arg2 X1 X2 k
  | 0, p, hp => by rw [pb_k1_t1.eq_1] at hp; exact absurd hp (List.not_mem_nil)
  | n + 1, p, hp => by
    rw [pb_k1_t1.eq_2] at hp; unfold pb_k1_t1Step at hp
    by_cases h : n < k1_t1_loop.trips
    · rw [dif_pos h] at hp
      dsimp only [tripL_k1_t1] at hp
      rw [trip_piece] at hp
      rcases List.mem_append.mp hp with h1 | h2
      · exact ⟨⟨n, h⟩, List.mem_singleton.mp h1⟩
      · exact pb_pieces 𝒱 c bd i arg1 harg1 arg2 harg2 arg3 harg3 arg4 harg4 X1 X2 G3 G4 n p h2
    · rw [dif_neg h] at hp
      exact pb_pieces 𝒱 c bd i arg1 harg1 arg2 harg2 arg3 harg3 arg4 harg4 X1 X2 G3 G4 n p hp

/-- The output block of one point: row k is trip k's row. -/
def blockVal (arg1 : Memref sig .tc .vmem S8x16x512 .f32) (arg2 : Memref sig .tc .vmem S8x512x16 .f32)
    (X1 : BufTy.Contents (Elt F) arg1.view.ty) (X2 : BufTy.Contents (Elt F) arg2.view.ty) : S8x512.Idx → Elt F .f32 := fun y =>
  rowVal arg1 arg2 X1 X2 ⟨(y 0).val, lt_of_lt_of_eq (y 0).isLt trips_eq.symm⟩ (ix2 (0 : Fin 1) (⟨(y 1).val, (y 1).isLt⟩ : Fin 512))

/-- A row piece is the block's array restricted to the piece's rectangle. -/
theorem rowPiece_restricts (arg1 : Memref sig .tc .vmem S8x16x512 .f32) (arg2 : Memref sig .tc .vmem S8x512x16 .f32)
    (X1 : BufTy.Contents (Elt F) arg1.view.ty) (X2 : BufTy.Contents (Elt F) arg2.view.ty) (k : Fin k1_t1_loop.trips)
    (x : (rowPiece arg1 arg2 X1 X2 k).1.shape.Idx) :
    (rowPiece arg1 arg2 X1 X2 k).2 x = blockVal arg1 arg2 X1 X2 ((rowPiece arg1 arg2 X1 X2 k).1.emb x) := by
  have hx0 : (x 0).val = 0 := by have := (x 0).isLt; exact Nat.lt_one_iff.mp this
  have h0 : (((rowPiece arg1 arg2 X1 X2 k).1.emb x) 0).val = k.val := by
    show k1_off33 k 0 + 1 * (x 0).val = k.val
    rw [k1_off33_eq k, hx0]; rfl
  have h1 : (((rowPiece arg1 arg2 X1 X2 k).1.emb x) 1).val = (x 1).val := by
    show k1_off33 k 1 + 1 * (x 1).val = (x 1).val
    rw [k1_off33_eq k]; show 0 + 1 * (x 1).val = (x 1).val; omega
  have hk : (⟨(((rowPiece arg1 arg2 X1 X2 k).1.emb x) 0).val, lt_of_lt_of_eq (((rowPiece arg1 arg2 X1 X2 k).1.emb x) 0).isLt trips_eq.symm⟩ : Fin k1_t1_loop.trips) = k := Fin.ext h0
  have hx : (ix2 (0 : Fin 1) (⟨(((rowPiece arg1 arg2 X1 X2 k).1.emb x) 1).val, (((rowPiece arg1 arg2 X1 X2 k).1.emb x) 1).isLt⟩ : Fin 512) : S1x512.Idx) = x :=
    funext fun a => match a with
      | ⟨0, _⟩ => Fin.ext hx0.symm
      | ⟨1, _⟩ => Fin.ext h1
  show rowVal arg1 arg2 X1 X2 k x = rowVal arg1 arg2 X1 X2 _ _
  rw [hk, hx]

/-- The run's piece list is the loop's, from junk contents of the block and the scratch. -/
theorem run_pieces (c : Dev nD) (i : grid1.Coords) (arg1 : Memref sig .tc .vmem S8x16x512 .f32) (harg1 : arg1.IsWhole) (arg2 : Memref sig .tc .vmem S8x512x16 .f32) (harg2 : arg2.IsWhole) (arg3 : Memref sig .tc .vmem S8x512 .f32) (harg3 : arg3.IsWhole) (arg4 : Memref sig .tc .vmem S512x512 .f32) (harg4 : arg4.IsWhole) (x0 : Vec F S8x16x512 .f32) (x1 : Vec F S8x512x16 .f32) :
    (kernelRun1_A (F := F) c i arg1 harg1 arg2 harg2 arg3 harg3 arg4 harg4 x0 x1).1
      = (pb_k1_t1 (F := F) Variants.none c none i arg1 harg1 arg2 harg2 arg3 harg3 arg4 harg4 (harg1.unread x0) (harg2.unread x1) arg3.view.junk arg4.view.junk
          (Scf.trips k1_t1_loop.lb k1_t1_loop.ub k1_t1_loop.st)).1 := rfl

/-- What the body leaves in the output block, from the contents x0, x1 of the two input blocks. -/
theorem out_eq (c : Dev nD) (i : grid1.Coords) (arg1 : Memref sig .tc .vmem S8x16x512 .f32) (harg1 : arg1.IsWhole) (arg2 : Memref sig .tc .vmem S8x512x16 .f32) (harg2 : arg2.IsWhole) (arg3 : Memref sig .tc .vmem S8x512 .f32) (harg3 : arg3.IsWhole) (arg4 : Memref sig .tc .vmem S512x512 .f32) (harg4 : arg4.IsWhole) (x0 : Vec F S8x16x512 .f32) (x1 : Vec F S8x512x16 .f32) :
    out1_A_2 (F := F) c i arg1 harg1 arg2 harg2 arg3 harg3 arg4 harg4 x0 x1 = blockVal arg1 arg2 (harg1.unread x0) (harg2.unread x1) := by
  funext y
  unfold out1_A_2
  rw [View.read_writes_eq_canon _ _ _ (cover1_A_2 c i arg1 harg1 arg2 harg2 arg3 harg3 arg4 harg4 x0 x1)]
  refine View.canon_apply_of_pieces (blockVal arg1 arg2 (harg1.unread x0) (harg2.unread x1)) _ (fun p hp x => ?_) y
    (cover1_A_2 c i arg1 harg1 arg2 harg2 arg3 harg3 arg4 harg4 x0 x1 y)
  rw [run_pieces] at hp
  obtain ⟨k, rfl⟩ := pb_pieces Variants.none c none i arg1 harg1 arg2 harg2 arg3 harg3 arg4 harg4 (harg1.unread x0) (harg2.unread x1) arg3.view.junk arg4.view.junk _ p hp
  exact rowPiece_restricts arg1 arg2 (harg1.unread x0) (harg2.unread x1) k x

end Cert.KernelIdeal.PairPieces

end
-- ==== Proof.PairPay.lean ====
/-
  The pairwise region's arithmetic, read one entry at a time over the extended reals.

  For one group, the region keeps a 512 x 512 scratch.  It is cleared; then for each of the 16 channels
  the entry (p, q) grows by |column entry p - row entry q|, where the column is a 1 x 512 x 1 block and the
  row a 1 x 1 x 512 block of the two transposed views of the product; finally entry p of the result is the
  sum over q of exp(0 - scratch(p, q)), stored as a 1 x 512 block.  Every layout step (a reshape between
  shapes with the same row-major order, a spread of a column or a row over the square) reads one entry of
  its operand, named here by explicit coordinates.  The last two statements say which entry of an array a
  unit-stride block at given offsets reads.
-/
import proofs.«113469_j1580547969899_2_alg».proof.Proof.Gen.KernelIdeal.Skeleton
import proofs.«113469_j1580547969899_2_alg».proof.Proof.Spec
import Idealize.ShloMosaic.Lib.Pipeline.Value
import Idealize.ShloMosaic.Lib.ValueIdx
import Idealize.ShloMosaic.PureOps.Ideal.Laws

noncomputable section

namespace Cert.KernelIdeal.PairPay

open Cert.KernelIdeal Cert.KernelIdeal.Gen Idealize.ShloMosaic Idealize.ShloMosaic.ValueIdx

/-- A 512 x 1 column spread over 512 columns, the column itself being the middle axis of a 1 x 512 x 1 block:
    entry (p, q) is the block's entry (0, p, 0). -/
theorem col_at (col : Vec Ideal S1x512x1 .f32) (p q : Fin 512) :
    broadcastTo S512x512 (shapeCast S512x1 col shapeCasts_S1x512x1_S512x1) broadcasts_S512x1_S512x512 (ix2 p q)
      = col (ix3 (0 : Fin 1) p (0 : Fin 1)) := by
  refine (broadcastTo_apply _ broadcasts_S512x1_S512x512 (ix2 p q) (ix2 p (0 : Fin 1)) (fun a => match a with
    | ⟨0, _⟩ => by show p.val = if (512 : Nat) = 1 then 0 else p.val; rw [if_neg (by decide)]
    | ⟨1, _⟩ => by show (0 : Fin 1).val = if (1 : Nat) = 1 then 0 else q.val; rw [if_pos rfl]; rfl)).trans ?_
  exact shapeCast_apply col shapeCasts_S1x512x1_S512x1 (ix2 p (0 : Fin 1)) (ix3 (0 : Fin 1) p (0 : Fin 1))
    (by rewrite [Shape.rowMajor_val_three, Shape.rowMajor_val_two]
        show (0 * 512 + p.val) * 1 + 0 = p.val * 1 + 0
        omega)

/-- A row of 512 spread over 512 rows, the row itself being the last axis of a 1 x 1 x 512 block:
    entry (p, q) is the block's entry (0, 0, q). -/
theorem row_at (row : Vec Ideal S1x1x512 .f32) (p q : Fin 512) :
    broadcastTo S512x512 (shapeCast S1x512 (shapeCast S512 row shapeCasts_S1x1x512_S512) shapeCasts_S512_S1x512)
        broadcasts_S1x512_S512x512 (ix2 p q)
      = row (ix3 (0 : Fin 1) (0 : Fin 1) q) := by
  refine (broadcastTo_apply _ broadcasts_S1x512_S512x512 (ix2 p q) (ix2 (0 : Fin 1) q) (fun a => match a with
    | ⟨0, _⟩ => by show (0 : Fin 1).val = if (1 : Nat) = 1 then 0 else p.val; rw [if_pos rfl]; rfl
    | ⟨1, _⟩ => by show q.val = if (512 : Nat) = 1 then 0 else q.val; rw [if_neg (by decide)])).trans ?_
  refine (shapeCast_apply _ shapeCasts_S512_S1x512 (ix2 (0 : Fin 1) q) (ix1 q)
    (by rewrite [Shape.rowMajor_val_one, Shape.rowMajor_val_two]
        show q.val = 0 * 512 + q.val
        omega)).trans ?_
  exact shapeCast_apply row shapeCasts_S1x1x512_S512 (ix1 q) (ix3 (0 : Fin 1) (0 : Fin 1) q)
    (by rewrite [Shape.rowMajor_val_three, Shape.rowMajor_val_one]
        show (0 * 1 + 0) * 512 + q.val = q.val
        omega)

/-- The scratch is cleared to the zero word, which reads 0. -/
theorem pay2_apply (p q : Fin 512) : k1_pay2 (F := Ideal) (ix2 p q) = 0 := by
  unfold k1_pay2
  rw [shapeCast_self]
  exact Ideal.ofBits_zero_f32

/-- One channel's step: entry (p, q) of the scratch grows by |column entry p - row entry q|. -/
theorem pay3_apply (row : Vec Ideal S1x1x512 .f32) (col : Vec Ideal S1x512x1 .f32) (acc : Vec Ideal S512x512 .f32) (p q : Fin 512) :
    k1_pay3 row col acc (ix2 p q)
      = acc (ix2 p q) + Cert.Spec.absE (col (ix3 (0 : Fin 1) p (0 : Fin 1)) - row (ix3 (0 : Fin 1) (0 : Fin 1) q)) := by
  unfold k1_pay3
  rw [shapeCast_self]
  show acc (ix2 p q) + Cert.Spec.absE
      (broadcastTo S512x512 (shapeCast S512x1 col shapeCasts_S1x512x1_S512x1) broadcasts_S512x1_S512x512 (ix2 p q)
        - broadcastTo S512x512 (shapeCast S1x512 (shapeCast S512 row shapeCasts_S1x1x512_S512) shapeCasts_S512_S1x512)
            broadcasts_S1x512_S512x512 (ix2 p q)) = _
  rw [col_at, row_at]

/-- The row sums of exp(0 - scratch): entry p is the sum over the 512 columns q. -/
theorem pay25_apply (v : Vec Ideal S512x512 .f32) (p : Fin 512) :
    k1_pay25 v (ix1 p) = ∑ q : Fin 512, Ideal.exp (0 - v (ix2 p q)) := by
  unfold k1_pay25
  refine (Ideal.multiReduction_add_single _ _ reduces_S512x512_S512 _ _ (ix1 p)).trans ?_
  show ∑ k : Fin 512, _ = _
  refine Finset.sum_congr rfl fun k _ => ?_
  have hk : reduces_S512x512_S512.lift (ix1 p) k = ix2 p k :=
    funext fun a => Fin.ext (by match a with | ⟨0, _⟩ => rfl | ⟨1, _⟩ => rfl)
  rw [hk]
  show Ideal.exp (Ideal.ofBits .f32 0x00000000#32 - v (ix2 p k)) = _
  rw [Ideal.ofBits_zero_f32]

/-- A vector of 512 stored as a 1 x 512 block: entry (0, p) is entry p. -/
theorem pay1_apply (r : FVec Ideal S512 .f32) (p : Fin 512) : k1_pay1 r (ix2 (0 : Fin 1) p) = r (ix1 p) := by
  unfold k1_pay1
  exact shapeCast_apply r shapeCasts_S512_S1x512 (ix2 (0 : Fin 1) p) (ix1 p)
    (by rewrite [Shape.rowMajor_val_one, Shape.rowMajor_val_two]
        show p.val = 0 * 512 + p.val
        omega)

/-- A 1 x 1 x 512 block of an 8 x 16 x 512 array at offsets (k, c, 0) reads, at (0, 0, q), the array at (k, c, q). -/
theorem row_load {Val : EltTy → Type} {e : EltTy} (x : S8x16x512.Idx → Val e) (off : Fin 3 → ℕ)
    (inb : ∀ a, off a + S1x1x512.size a ≤ S8x16x512.size a) (k : Fin 8) (c : Fin 16)
    (hoff : off = ![k.val, c.val, 0]) (q : Fin 512) :
    View.ld x (Rect.unit (s := S8x16x512) off S1x1x512.size inb) (ix3 (0 : Fin 1) (0 : Fin 1) q) = x (ix3 k c q) := by
  subst hoff
  refine congrArg x (funext fun a => Fin.ext ?_)
  match a with
  | ⟨0, _⟩ => show k.val + 1 * 0 = k.val; omega
  | ⟨1, _⟩ => show c.val + 1 * 0 = c.val; omega
  | ⟨2, _⟩ => show 0 + 1 * q.val = q.val; omega

/-- A 1 x 512 x 1 block of an 8 x 512 x 16 array at offsets (k, 0, c) reads, at (0, p, 0), the array at (k, p, c). -/
theorem col_load {Val : EltTy → Type} {e : EltTy} (x : S8x512x16.Idx → Val e) (off : Fin 3 → ℕ)
    (inb : ∀ a, off a + S1x512x1.size a ≤ S8x512x16.size a) (k : Fin 8) (c : Fin 16)
    (hoff : off = ![k.val, 0, c.val]) (p : Fin 512) :
    View.ld x (Rect.unit (s := S8x512x16) off S1x512x1.size inb) (ix3 (0 : Fin 1) p (0 : Fin 1)) = x (ix3 k p c) := by
  subst hoff
  refine congrArg x (funext fun a => Fin.ext ?_)
  match a with
  | ⟨0, _⟩ => show k.val + 1 * 0 = k.val; omega
  | ⟨1, _⟩ => show 0 + 1 * p.val = p.val; omega
  | ⟨2, _⟩ => show c.val + 1 * 0 = c.val; omega

end Cert.KernelIdeal.PairPay

end
-- ==== Proof.PairBlocks.lean ====
/-
  The second kernel call's blocks and its output array.

  The call runs over 8 grid points.  At point t each of its two inputs is the slab of 8 consecutive groups
  8 t, …, 8 t + 7 of its array (all channels, all rows), and its output block is rows 8 t, …, 8 t + 7 of the
  64 x 512 output array (one row per group), written back at every point.  So an entry of a block at local group kk
  is the array's entry at group 8 t + kk, and, the 8 output blocks tiling the 64 rows, the output array after the
  call is assembled from the blocks: if every point's block holds R at its groups, the array holds R.
-/
import proofs.«113469_j1580547969899_2_alg».proof.Proof.FrameKernelIdeal
import Idealize.ShloMosaic.Lib.Pipeline.Value
import Idealize.ShloMosaic.Lib.ValueIdx

set_option maxRecDepth 16384

noncomputable section

namespace Cert.KernelIdeal.PairBlocks

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- A grid point's number is below 8. -/
theorem point_lt (t : Fin cfg1.N) : t.val < 8 := t.isLt.trans_eq N_1

/-- Group kk of point t's block is group 8 t + kk of the array. -/
def grp (t : Fin cfg1.N) (kk : Fin 8) : Fin 64 := ⟨8 * t.val + kk.val, by have := point_lt t; omega⟩

/-- The three windows' block indices, decided over the grid: point t takes block t along the groups and block 0 along
    every other axis. -/
theorem block_index : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-! ## The input blocks -/

/-- The first input's block (group x channel x row) at an entry. -/
theorem iblk_row (t : Fin cfg1.N) (kk : Fin 8) (cc : Fin 16) (q : Fin 512) :
    iblk1 V c 0 t (ix3 kk cc q) = V c main_v3 (ix3 (grp t kk) cc q) := by
  obtain ⟨e0, e1, e2, -⟩ := block_index t
  unfold iblk1
  rw [View.read_apply]
  show V c main_v3 (((cfg1.win 0).blk t).view.emb (ix3 kk cc q)) = V c main_v3 (ix3 (grp t kk) cc q)
  refine congrArg (V c main_v3) (funext fun a => Fin.ext ?_)
  match a with
  | ⟨0, _⟩ => show win1_0.index t (0 : Fin 3) * 8 + 1 * kk.val = 8 * t.val + kk.val; omega
  | ⟨1, _⟩ => show win1_0.index t (1 : Fin 3) * 16 + 1 * cc.val = cc.val; omega
  | ⟨2, _⟩ => show win1_0.index t (2 : Fin 3) * 512 + 1 * q.val = q.val; omega

/-- The second input's block (group x row x channel) at an entry. -/
theorem iblk_col (t : Fin cfg1.N) (kk : Fin 8) (p : Fin 512) (cc : Fin 16) :
    iblk1 V c 1 t (ix3 kk p cc) = V c main_v4 (ix3 (grp t kk) p cc) := by
  obtain ⟨-, -, -, e0, e1, e2, -⟩ := block_index t
  unfold iblk1
  rw [View.read_apply]
  show V c main_v4 (((cfg1.win 1).blk t).view.emb (ix3 kk p cc)) = V c main_v4 (ix3 (grp t kk) p cc)
  refine congrArg (V c main_v4) (funext fun a => Fin.ext ?_)
  match a with
  | ⟨0, _⟩ => show win1_1.index t (0 : Fin 3) * 8 + 1 * kk.val = 8 * t.val + kk.val; omega
  | ⟨1, _⟩ => show win1_1.index t (1 : Fin 3) * 512 + 1 * p.val = p.val; omega
  | ⟨2, _⟩ => show win1_1.index t (2 : Fin 3) * 16 + 1 * cc.val = cc.val; omega

/-! ## From the output blocks to the output array -/

/-- A function of group and row as contents of the 64 x 512 output array. -/
abbrev asArray (R : Fin 64 → Fin 512 → EReal) : S64x512.Idx → EReal := fun i => R (i 0) (i 1)

/-- What point t writes back is its block of R, when the point's block holds R at its groups. -/
theorem flushed_eq (R : Fin 64 → Fin 512 → EReal)
    (hout : ∀ (t : Fin cfg1.N) (kk : Fin 8) (p : Fin 512), outsAt1 V c t (ix2 kk p) = R (grp t kk) p)
    (t : Fin cfg1.N) :
    (dat1 (F := Ideal) V c).flushed 2 t = ((cfg1.win 2).blk t).view.read (Elt Ideal) (asArray R) := by
  obtain ⟨-, -, -, -, -, -, e0, e1⟩ := block_index t
  show (cfg1.win 2).cut (grid1.coords t) ((dat1 (F := Ideal) V c).after 2 t) = _
  rw [after1_2]
  funext y
  obtain ⟨kk, p, rfl⟩ : ∃ (kk : Fin 8) (p : Fin 512), y = ix2 kk p := ⟨y 0, y 1, eq_ix2 y⟩
  rw [View.read_apply]
  show outsAt1 V c t (ix2 kk p) = R ((((cfg1.win 2).blk t).view.emb (ix2 kk p)) 0) ((((cfg1.win 2).blk t).view.emb (ix2 kk p)) 1)
  rw [hout t kk p]
  refine congrArg₂ R (Fin.ext ?_) (Fin.ext ?_)
  · show 8 * t.val + kk.val = win1_2.index t (0 : Fin 2) * 8 + 1 * kk.val; omega
  · show p.val = win1_2.index t (1 : Fin 2) * 512 + 1 * p.val; omega

/-- An entry of the array lies in point t's block iff each coordinate lies in the block's range on its axis. -/
theorem mem_blk (t : Fin cfg1.N) (i : S64x512.Idx) :
    i ∈ ((cfg1.win 2).blk t).view.set
      ↔ ∀ a : Fin 2, win1_2.index t a * S8x512.size a ≤ (i a).val ∧ (i a).val < win1_2.index t a * S8x512.size a + S8x512.size a := by
  show i ∈ ((View.whole main_v5).slice (win1_2.rect t)).set ↔ _
  rw [View.set_slice_whole, Rect.mem_set_unit]
  exact Iff.rfl

/-- Every entry of the array is in some point's block: row b is in the block of point b / 8. -/
theorem covered (i : S64x512.Idx) : ∃ t : Fin cfg1.N, (cfg1.win 2).flush t = true ∧ i ∈ ((cfg1.win 2).blk t).view.set := by
  have h0 : (i 0).val < 64 := (i 0).isLt
  have h1 : (i 1).val < 512 := (i 1).isLt
  have hN : cfg1.N = 8 := N_1
  let t : Fin cfg1.N := ⟨(i 0).val / 8, by rw [hN]; omega⟩
  obtain ⟨-, -, -, -, -, -, e0, e1⟩ := block_index t
  have ht : t.val = (i 0).val / 8 := rfl
  refine ⟨t, flush1_2 t, ?_⟩
  rw [mem_blk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 512 ≤ (i 1).val ∧ (i 1).val < win1_2.index t (1 : Fin 2) * 512 + 512; omega

/-- The output array after the call, entry by entry, from the blocks. -/
theorem final_of_blocks (R : Fin 64 → Fin 512 → EReal)
    (hout : ∀ (t : Fin cfg1.N) (kk : Fin 8) (p : Fin 512), outsAt1 V c t (ix2 kk p) = R (grp t kk) p) :
    ∀ (b : Fin 64) (i : Fin 512), (dat1 (F := Ideal) V c).arrAt 2 cfg1.N (ix2 b i) = R b i := fun b i =>
  congrFun ((dat1 (F := Ideal) V c).arrAt_eq_of_cover 2 (asArray R) (fun t _ => flushed_eq V c R hout t) covered) (ix2 b i)

end Cert.KernelIdeal.PairBlocks

end
-- ==== Proof.PairValue.lean ====
/-
  Region 1's value: the output array after the pairwise stage, entry by entry.

  With R the [64, 16, 512] array of rows (group, channel, position) and C the [64, 512, 16] array of columns (group,
  position, channel) that the stage is given, entry (b, i) of its [64, 512] result is
      the sum over j of exp(0 - (the sum over the 16 channels c of |C(b, i, c) - R(b, c, j)|)).
  A grid point handles 8 consecutive groups; within it, trip k of the loop handles the k-th of them: its scratch after the
  16 channels holds at (p, q) the sum over c of |C(b, p, c) - R(b, c, q)| (a left-nested sum from zero, which is the sum
  over the channels), and the trip's row is the row sums of exp(0 - scratch).
-/
import proofs.«113469_j1580547969899_2_alg».proof.Proof.PairPieces
import proofs.«113469_j1580547969899_2_alg».proof.Proof.PairPay
import proofs.«113469_j1580547969899_2_alg».proof.Proof.PairBlocks
import proofs.«113469_j1580547969899_2_alg».proof.Proof.Spec

set_option maxRecDepth 65536

noncomputable section

namespace Cert.KernelIdeal.PairValue

open Cert.KernelIdeal Cert.KernelIdeal.Gen Cert.KernelIdeal.GenP
open Cert.KernelIdeal.PairTrip Cert.KernelIdeal.PairPieces Cert.KernelIdeal.PairPay Cert.KernelIdeal.PairBlocks
open Idealize.ShloMosaic Idealize.ShloMosaic.TcCoe Idealize.ShloMosaic.ValueIdx

/-- The scratch after the first n channels, at (p, q): the sum over those channels of |col_c(p) - row_c(q)|. -/
theorem accum_apply (row : Fin 16 → Vec Ideal S1x1x512 .f32) (col : Fin 16 → Vec Ideal S1x512x1 .f32) (p q : Fin 512) :
    ∀ (n : ℕ) (h : n ≤ 16), accum row col n h (ix2 p q)
      = ∑ cc : Fin n, Cert.Spec.absE (col (Fin.castLE h cc) (ix3 (0 : Fin 1) p (0 : Fin 1)) - row (Fin.castLE h cc) (ix3 (0 : Fin 1) (0 : Fin 1) q))
  | 0, h => by
    rw [accum, pay2_apply]; simp
  | n + 1, h => by
    rw [accum, pay3_apply, accum_apply row col p q n (Nat.le_of_succ_le h), Fin.sum_univ_castSucc]
    rfl

/-- Channel cc's row load of trip k at position q is entry (kk, cc, q) of the first input block. -/
theorem rowAt_apply (arg1 : Memref sig .tc .vmem S8x16x512 .f32) (harg1 : arg1.IsWhole) (x0 : Vec Ideal S8x16x512 .f32)
    (k : Fin k1_t1_loop.trips) (kk : Fin 8) (hk : k.val = kk.val) (cc : Fin 16) (q : Fin 512) :
    rowAt arg1 (harg1.unread x0) k cc (ix3 (0 : Fin 1) (0 : Fin 1) q) = x0 (ix3 kk cc q) := by
  unfold rowAt
  rw [View.readAt_eq_ld, harg1.read_unread]
  exact row_load (Val := Elt Ideal) (e := .f32) x0 _ _ kk cc (by rw [rowOff_eq, hk]) q

/-- Channel cc's column load of trip k at position p is entry (kk, p, cc) of the second input block. -/
theorem colAt_apply (arg2 : Memref sig .tc .vmem S8x512x16 .f32) (harg2 : arg2.IsWhole) (x1 : Vec Ideal S8x512x16 .f32)
    (k : Fin k1_t1_loop.trips) (kk : Fin 8) (hk : k.val = kk.val) (cc : Fin 16) (p : Fin 512) :
    colAt arg2 (harg2.unread x1) k cc (ix3 (0 : Fin 1) p (0 : Fin 1)) = x1 (ix3 kk p cc) := by
  unfold colAt
  rw [View.readAt_eq_ld, harg2.read_unread]
  exact col_load (Val := Elt Ideal) (e := .f32) x1 _ _ kk cc (by rw [colOff_eq, hk]) p

/-- The output block of one point at (kk, p), from the two input blocks x0 (rows) and x1 (columns). -/
theorem blockVal_apply (arg1 : Memref sig .tc .vmem S8x16x512 .f32) (harg1 : arg1.IsWhole) (arg2 : Memref sig .tc .vmem S8x512x16 .f32) (harg2 : arg2.IsWhole)
    (x0 : Vec Ideal S8x16x512 .f32) (x1 : Vec Ideal S8x512x16 .f32) (kk : Fin 8) (p : Fin 512) :
    blockVal arg1 arg2 (harg1.unread x0) (harg2.unread x1) (ix2 kk p)
      = ∑ q : Fin 512, Ideal.exp (0 - ∑ cc : Fin 16, Cert.Spec.absE (x1 (ix3 kk p cc) - x0 (ix3 kk cc q))) := by
  unfold blockVal rowVal
  rw [pay1_apply, pay25_apply]
  refine Finset.sum_congr rfl fun q _ => ?_
  rw [accum_apply]
  refine congrArg (fun z => Ideal.exp (0 - z)) (Finset.sum_congr rfl fun cc _ => ?_)
  exact congrArg₂ (fun a b => Cert.Spec.absE (a - b)) (colAt_apply arg2 harg2 x1 _ kk rfl _ _) (rowAt_apply arg1 harg1 x0 _ kk rfl _ q)

variable (V : (c : Dev nD) → (b : Ref sig .tc) → Buf (Elt Ideal) ((c : Thread nD τ).loc b)) (c : Dev nD)

/-- The stage's result at (b, i), from the array C of columns and the array R of rows it is given. -/
def pairOf (C : S64x512x16.Idx → EReal) (R : S64x16x512.Idx → EReal) (b : Fin 64) (i : Fin 512) : EReal :=
  ∑ j : Fin 512, Ideal.exp (0 - ∑ cc : Fin 16, Cert.Spec.absE (C (ix3 b i cc) - R (ix3 b cc j)))

/-- After region 1 its output array holds that result at every entry. -/
theorem final (b : Fin 64) (i : Fin 512) :
    (dat1 (F := Ideal) V c).arrAt 2 cfg1.N (ix2 b i) = pairOf (V c main_v4) (V c main_v3) b i := by
  refine final_of_blocks V c (pairOf (V c main_v4) (V c main_v3)) (fun t kk p => ?_) b i
  unfold outsAt1
  rw [out_eq, blockVal_apply]
  unfold pairOf
  refine Finset.sum_congr rfl fun q _ => ?_
  refine congrArg (fun z => Ideal.exp (0 - z)) (Finset.sum_congr rfl fun cc _ => ?_)
  rw [iblk_row V c t kk cc q, iblk_col V c t kk p cc]

end Cert.KernelIdeal.PairValue

end
-- ==== Proof.KRun.lean ====
/-
  The kernel program's run with its result named.

  From any launch memory with zero counters, every weakly fair execution of the program on the TensorCores ends,
  nothing faulting, and in every final memory the result buffer holds what the program's five stretches leave there
  when they are applied in order to the launch memory — the first tensor stretch, the first kernel call's pipeline,
  the second tensor stretch, the second kernel call's pipeline, the last tensor stretch — while both arguments hold
  what they held at launch.  The thread state at the end holds EVERY buffer that outlives a kernel call at those
  contents; the statement reads three of them off it: the result and the two arguments.
-/
import proofs.«113469_j1580547969899_2_alg».proof.Proof.FrameKernelIdeal

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- matching the launch theorem's conclusion against this statement needs definitions unfolded inside the types of
-- the unknowns being solved for, which the elaborator does only when told to
set_option backward.isDefEq.respectTransparency.types false in
/-- The run: the result buffer ends at the fold of the five stretches over the launch memory, read at the result
    buffer; the arguments end as launched. -/
theorem run_value : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c)⟩)

end Cert.KernelIdeal.KRun

end
-- ==== Proof.HostRead.lean ====
/-
  The tensor operations that the program runs outside its two kernel calls, read at the buffers they write.

  The program has three such stretches.  Before the first call the 512 x 512 x 4 x 4 argument is reshaped to the
  512 x 8192 matrix x.  Between the calls the first call's 512 x 1024 result M is reshaped to 512 x 64 x 16 (column
  16 b + c becomes channel c of group b: the reshape is row-major) and transposed twice, once to group x channel x row
  and once to group x row x channel.  After the second call its 64 x 512 result is transposed to 512 x 64 and appended
  to x along the columns.

  Every statement here holds from ANY contents W of the core's buffers at the start of the stretch, so that the facts
  can be used at whatever the preceding kernel call leaves.  Nothing is computed: each operation is a relabelling of
  entries, and the entry lemmas say which entry of the operand an entry of the result is.
-/
import proofs.«113469_j1580547969899_2_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostRead

open Cert.KernelIdeal Cert.KernelIdeal.Gen Idealize.ShloMosaic Idealize.ShloMosaic.TcCoe Idealize.SL.Sem
open Idealize.ShloMosaic.ValueIdx

variable {F : FTy → Type} [FloatOps F]
variable (W : Valuation τ sig (Elt F))

/-! ## Before the first call: x is the first argument reshaped, the second argument is untouched -/

theorem first_x : StableHlo.after hostOps0 W (Proc.devRef .tc main_v0)
    = shapeCast S512x8192 (W (Proc.devRef .tc main_arg0)) shapeCasts_S512x512x4x4_S512x8192 := by
  after_results; rfl

theorem first_T : StableHlo.after hostOps0 W (Proc.devRef .tc main_arg1) = W (Proc.devRef .tc main_arg1) := by
  after_results

/-! ## Between the calls: both transposed copies of M, entry by entry

An entry of either copy at group b, channel c and row r is M's entry at row r and column 16 b + c.  The column is a
parameter n with the equation n = 16 b + c as a hypothesis, so that a caller may name the column as it likes. -/

/-- The reshape 512 x 1024 to 512 x 64 x 16 at an entry: the two row-major positions agree. -/
theorem split_columns (M : S512x1024.Idx → Elt F .f32) (r : Fin 512) (b : Fin 64) (cc : Fin 16) (n : Fin 1024)
    (hn : n.val = b.val * 16 + cc.val) :
    shapeCast S512x64x16 M shapeCasts_S512x1024_S512x64x16 (ix3 r b cc) = M (ix2 r n) := by
  refine shapeCast_apply M shapeCasts_S512x1024_S512x64x16 (ix3 r b cc) (ix2 r n) ?_
  rw [Shape.rowMajor_val_two, Shape.rowMajor_val_three]
  show r.val * 1024 + n.val = (r.val * 64 + b.val) * 16 + cc.val
  omega

/-- The copy laid out group x channel x row. -/
theorem between_byRow (b : Fin 64) (cc : Fin 16) (r : Fin 512) (n : Fin 1024) (hn : n.val = b.val * 16 + cc.val) :
    (StableHlo.after hostOps1 W (Proc.devRef .tc main_v3) : S64x16x512.Idx → Elt F .f32) (ix3 b cc r)
      = (W (Proc.devRef .tc main_v1) : S512x1024.Idx → Elt F .f32) (ix2 r n) := by
  have e : (StableHlo.after hostOps1 W (Proc.devRef .tc main_v3) : S64x16x512.Idx → Elt F .f32)
      = transpose S64x16x512 [1, 2, 0]
          (shapeCast S512x64x16 (W (Proc.devRef .tc main_v1) : S512x1024.Idx → Elt F .f32) shapeCasts_S512x1024_S512x64x16)
          transposes_S512x64x16_S64x16x512_1_2_0 := by
    after_results; rfl
  rw [e]
  refine (transpose_apply _ _ transposes_S512x64x16_S64x16x512_1_2_0 (ix3 b cc r) (ix3 r b cc)
    fun a => match a with | ⟨0, _⟩ => rfl | ⟨1, _⟩ => rfl | ⟨2, _⟩ => rfl).trans ?_
  exact split_columns _ r b cc n hn

/-- The copy laid out group x row x channel. -/
theorem between_byChannel (b : Fin 64) (r : Fin 512) (cc : Fin 16) (n : Fin 1024) (hn : n.val = b.val * 16 + cc.val) :
    (StableHlo.after hostOps1 W (Proc.devRef .tc main_v4) : S64x512x16.Idx → Elt F .f32) (ix3 b r cc)
      = (W (Proc.devRef .tc main_v1) : S512x1024.Idx → Elt F .f32) (ix2 r n) := by
  have e : (StableHlo.after hostOps1 W (Proc.devRef .tc main_v4) : S64x512x16.Idx → Elt F .f32)
      = transpose S64x512x16 [1, 0, 2]
          (shapeCast S512x64x16 (W (Proc.devRef .tc main_v1) : S512x1024.Idx → Elt F .f32) shapeCasts_S512x1024_S512x64x16)
          transposes_S512x64x16_S64x512x16_1_0_2 := by
    after_results; rfl
  rw [e]
  refine (transpose_apply _ _ transposes_S512x64x16_S64x512x16_1_0_2 (ix3 b r cc) (ix3 r b cc)
    fun a => match a with | ⟨0, _⟩ => rfl | ⟨1, _⟩ => rfl | ⟨2, _⟩ => rfl).trans ?_
  exact split_columns _ r b cc n hn

/-- The stretch between the calls writes neither x nor the arguments. -/
theorem between_x : StableHlo.after hostOps1 W (Proc.devRef .tc main_v0) = W (Proc.devRef .tc main_v0) := by
  after_results

/-! ## After the second call: x with the transposed result appended -/

theorem last_result : StableHlo.after hostOps2 W (Proc.devRef .tc main_v7)
    = concatenate S512x8256 1
        [⟨S512x8192, (W (Proc.devRef .tc main_v0) : S512x8192.Idx → Elt F .f32)⟩,
         ⟨S512x64, transpose S512x64 [1, 0] (W (Proc.devRef .tc main_v5) : S64x512.Idx → Elt F .f32) transposes_S64x512_S512x64_1_0⟩]
        concatenates_S512x8192_S512x64_S512x8256_d1 := by
  after_results

/-- The 64 x 512 result transposed: entry (r, b) is the operand's entry (b, r). -/
theorem transpose_o {α : Type} (A : S64x512.Idx → α) (r : Fin 512) (b : Fin 64) :
    transpose S512x64 [1, 0] A transposes_S64x512_S512x64_1_0 (ix2 r b) = A (ix2 b r) :=
  transpose_ix2_apply A transposes_S64x512_S512x64_1_0 r b

end Cert.KernelIdeal.HostRead

end
-- ==== Proof.HostFold.lean ====
/-
  The contents of the buffers at the boundaries of the kernel program's five stretches, read back to the launch
  memory and to the two kernel calls' output arrays.

  * When the first kernel call is entered, its first input is x, the first argument reshaped to 512 x 8192, and its
    second input is the second argument as launched.
  * When the second kernel call is entered, its two inputs are the two transposed copies of the first call's output
    array M: at group b, channel c and row r both hold M's entry at row r and column 16 b + c.
  * At the end the result buffer is x with the second call's output array, transposed to 512 x 64, appended along the
    columns.  Here x is still what the first stretch made it: the first call only reads it (it is an input of that
    call, and a pipeline leaves its inputs as it found them), and nothing later writes it.
-/
import proofs.«113469_j1580547969899_2_alg».proof.Proof.FrameKernelIdeal
import proofs.«113469_j1580547969899_2_alg».proof.Proof.HostRead
import proofs.«113469_j1580547969899_2_alg».proof.Proof.Spec

set_option maxRecDepth 16384

noncomputable section

namespace Cert.KernelIdeal.KRun

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Entering the first kernel call -/

theorem V1_x : V1 m ρ c main_v0
    = shapeCast S512x8192 (m ((c.tc : Thread nD τ).loc main_arg0)) shapeCasts_S512x512x4x4_S512x8192 :=
  HostRead.first_x (W0 m ρ c)

theorem V1_T : V1 m ρ c main_arg1 = m ((c.tc : Thread nD τ).loc main_arg1) :=
  HostRead.first_T (W0 m ρ c)

/-! ## Entering the second kernel call -/

/-- The first call's output array is what the buffer of M holds when the call is left. -/
theorem W2_M : W2 m ρ c (Proc.devRef .tc main_v1) = (dat0 (V1 m ρ) c).arrAt 2 cfg0.N := W2_arr m ρ c 2

theorem V3_row (b : Fin 64) (cc : Fin 16) (j : Fin 512) :
    V3 m ρ c main_v3 (ix3 b cc j) = (dat0 (V1 m ρ) c).arrAt 2 cfg0.N (ix2 j (Cert.Spec.chan b cc)) :=
  (HostRead.between_byRow (W2 m ρ c) b cc j (Cert.Spec.chan b cc) rfl).trans (congrFun (W2_M m ρ c) _)

theorem V3_col (b : Fin 64) (i : Fin 512) (cc : Fin 16) :
    V3 m ρ c main_v4 (ix3 b i cc) = (dat0 (V1 m ρ) c).arrAt 2 cfg0.N (ix2 i (Cert.Spec.chan b cc)) :=
  (HostRead.between_byChannel (W2 m ρ c) b i cc (Cert.Spec.chan b cc) rfl).trans (congrFun (W2_M m ρ c) _)

/-! ## At the end -/

/-- x when the second call is left: still the reshaped first argument.  Walking back: the second call does not have
    x among its arrays; the stretch between the calls does not write it; the first call has it as an input, which a
    pipeline leaves as entered; and the first stretch made it. -/
theorem W4_x : W4 m ρ c (Proc.devRef .tc main_v0)
    = shapeCast S512x8192 (m ((c.tc : Thread nD τ).loc main_arg0)) shapeCasts_S512x512x4x4_S512x8192 :=
  calc W4 m ρ c (Proc.devRef .tc main_v0)
    _ = W3 m ρ c (Proc.devRef .tc main_v0) := W4_of_ne m ρ c main_v0 (by decide)
    _ = W2 m ρ c (Proc.devRef .tc main_v0) := HostRead.between_x (W2 m ρ c)
    _ = W1 m ρ c (Proc.devRef .tc main_v0) :=
        (W2_arr m ρ c 0).trans (((dat0 (V1 m ρ) c).arrAt_in 0 rfl _).trans (A_eq0 (V1 m ρ) c 0))
    _ = _ := V1_x m ρ c

/-- The second call's output array is what its result buffer holds when the call is left. -/
theorem W4_o : W4 m ρ c (Proc.devRef .tc main_v5) = (dat1 (V3 m ρ) c).arrAt 2 cfg1.N := W4_arr m ρ c 2

theorem W5_result : W5 m ρ c (Proc.devRef .tc main_v7)
    = concatenate S512x8256 1
        [⟨S512x8192, shapeCast S512x8192 (m ((c.tc : Thread nD τ).loc main_arg0)) shapeCasts_S512x512x4x4_S512x8192⟩,
         ⟨S512x64, transpose S512x64 [1, 0] ((dat1 (V3 m ρ) c).arrAt 2 cfg1.N) transposes_S64x512_S512x64_1_0⟩]
        concatenates_S512x8192_S512x64_S512x8256_d1 := by
  refine (HostRead.last_result (W4 m ρ c)).trans ?_
  rw [W4_x m ρ c, W4_o m ρ c]

/-- The 64 x 512 output transposed: entry (r, b) is the operand's entry (b, r). -/
theorem transpose_o (A : S64x512.Idx → EReal) (r : Fin 512) (b : Fin 64) :
    transpose S512x64 [1, 0] A transposes_S64x512_S512x64_1_0 (ix2 r b) = A (ix2 b r) :=
  HostRead.transpose_o A r b

end Cert.KernelIdeal.KRun

end
-- ==== Proof.RefIdx.lean ====
/-
  Index bookkeeping for the reference program.  Each layout stage of the reference reads its operand
  at an index computed from the result's index; at an index given by explicit coordinates these are
  again indices with explicit coordinates.  The only arithmetic is in the reshape of the 512 x 1024
  product to 512 x 64 x 16: row-major order sends (r, b, c) to position (r * 64 + b) * 16 + c, whose
  quotient by 1024 is r and whose remainder is 16 b + c, the column of channel c of group b.
-/
import proofs.«113469_j1580547969899_2_alg».proof.Proof.Gen.ReferenceIdeal.Read
import proofs.«113469_j1580547969899_2_alg».proof.Proof.Spec

namespace Cert.ReferenceIdeal.RefValue

open Cert.ReferenceIdeal Cert.ReferenceIdeal.Gen Cert.ReferenceIdeal.Read Idealize.ShloMosaic Idealize.ShloMosaic.ValueIdx

/-- The last sum runs over the middle axis: entry (r, b) collects the entries (r, k, b). -/
theorem idx12 (r : Fin 512) (b : Fin 64) (k : Fin 512) :
    idx_main_v12 (ix2 r b) k = ix3 r k b :=
  funext fun a => Fin.ext (by match a with | ⟨0, _⟩ => rfl | ⟨1, _⟩ => rfl | ⟨2, _⟩ => rfl)

/-- The channel sum runs over the last axis: entry (r, k, b) collects the entries (r, k, b, c). -/
theorem idx9 (r k : Fin 512) (b : Fin 64) (c : Fin 16) :
    idx_main_v9 (ix3 r k b) c = ix4 r k b c :=
  funext fun a => Fin.ext (by match a with | ⟨0, _⟩ => rfl | ⟨1, _⟩ => rfl | ⟨2, _⟩ => rfl | ⟨3, _⟩ => rfl)

/-- The first operand of the difference does not depend on the second row coordinate. -/
theorem idx5 (r k : Fin 512) (b : Fin 64) (c : Fin 16) :
    idx_main_v5 (ix4 r k b c) = ix4 r (0 : Fin 1) b c :=
  funext fun a => Fin.ext (by match a with | ⟨0, _⟩ => rfl | ⟨1, _⟩ => rfl | ⟨2, _⟩ => rfl | ⟨3, _⟩ => rfl)

/-- The second operand of the difference does not depend on the first row coordinate. -/
theorem idx6 (r k : Fin 512) (b : Fin 64) (c : Fin 16) :
    idx_main_v6 (ix4 r k b c) = ix4 (0 : Fin 1) k b c :=
  funext fun a => Fin.ext (by match a with | ⟨0, _⟩ => rfl | ⟨1, _⟩ => rfl | ⟨2, _⟩ => rfl | ⟨3, _⟩ => rfl)

/-- Inserting a unit axis in second place: (r, 0, b, c) reads (r, b, c). -/
theorem idx3 (r : Fin 512) (z : Fin 1) (b : Fin 64) (c : Fin 16) :
    idx_main_v3 (ix4 r z b c) = ix3 r b c :=
  funext fun a => Fin.ext (by match a with | ⟨0, _⟩ => rfl | ⟨1, _⟩ => rfl | ⟨2, _⟩ => rfl)

/-- Inserting a unit axis in first place: (0, k, b, c) reads (k, b, c). -/
theorem idx4 (z : Fin 1) (k : Fin 512) (b : Fin 64) (c : Fin 16) :
    idx_main_v4 (ix4 z k b c) = ix3 k b c :=
  funext fun a => Fin.ext (by match a with | ⟨0, _⟩ => rfl | ⟨1, _⟩ => rfl | ⟨2, _⟩ => rfl)

/-- The reshape to 512 x 64 x 16: entry (r, b, c) is entry (r, 16 b + c) of the product. -/
theorem idx2 (r : Fin 512) (b : Fin 64) (c : Fin 16) :
    idx_main_v2 (ix3 r b c) = ix2 r (Cert.Spec.chan b c) :=
  funext fun a => Fin.ext (by
    have hr : r.val < 512 := r.isLt
    have hb : b.val < 64 := b.isLt
    have hc : c.val < 16 := c.isLt
    match a with
    | ⟨0, _⟩ => show ((r.val * 64 + b.val) * 16 + c.val) / 1024 = r.val; omega
    | ⟨1, _⟩ => show ((r.val * 64 + b.val) * 16 + c.val) % 1024 = b.val * 16 + c.val; omega)

/-- The product's entry (r, n) reads the left factor along row r … -/
theorem lidx1 (r : Fin 512) (n : Fin 1024) (k : Fin 8192) :
    lidx_main_v1 (ix2 r n) k = ix2 r k :=
  funext fun a => Fin.ext (by match a with | ⟨0, _⟩ => rfl | ⟨1, _⟩ => rfl)

/-- … and the right factor along column n. -/
theorem ridx1 (r : Fin 512) (n : Fin 1024) (k : Fin 8192) :
    ridx_main_v1 (ix2 r n) k = ix2 k n :=
  funext fun a => Fin.ext (by match a with | ⟨0, _⟩ => rfl | ⟨1, _⟩ => rfl)

end Cert.ReferenceIdeal.RefValue
-- ==== Proof.RefValue.lean ====
/-
  The reference program's result, entry by entry, is the specification.

  The reference forms the product M = x T by one contraction over the 8192 shared positions, views
  its 1024 columns as 64 groups of 16 channels, spreads two copies of that view over a 512 x 512 grid
  of row pairs (one constant along the second row coordinate, the other along the first), subtracts,
  takes absolute values, sums over the 16 channels, negates, exponentiates, and sums over the second
  row coordinate.  Read at explicit coordinates each stage is the corresponding stage of the
  specification; the two sums start from the zero word, and 0 + s = s.  No entry is assumed finite.
-/
import proofs.«113469_j1580547969899_2_alg».proof.Proof.RefIdx

noncomputable section

namespace Cert.ReferenceIdeal.RefValue

open Cert.ReferenceIdeal Cert.ReferenceIdeal.Gen Cert.ReferenceIdeal.Read Idealize.ShloMosaic Idealize.ShloMosaic.ValueIdx

/-- The reference's first result operand is the reshaped first argument. -/
theorem x_eq (x0 : (⟨S512x512x4x4, .f32⟩ : BufTy).Contents (Elt Ideal)) :
    val_main_v0 (F := Ideal) x0 = shapeCast S512x8192 x0 shapeCasts_S512x512x4x4_S512x8192 := rfl

/-- Entry (r, n) of the contraction is the product's entry. -/
theorem v1_at (x0 : (⟨S512x512x4x4, .f32⟩ : BufTy).Contents (Elt Ideal)) (x1 : (⟨S8192x1024, .f32⟩ : BufTy).Contents (Elt Ideal))
    (r : Fin 512) (n : Fin 1024) :
    val_main_v1 (F := Ideal) x0 x1 (ix2 r n) = Cert.Spec.prod (val_main_v0 (F := Ideal) x0) x1 r n := by
  rw [val_main_v1_apply]
  unfold Cert.Spec.prod
  refine Finset.sum_congr rfl fun k _ => ?_
  rw [lidx1, ridx1]

/-- Entry (r, b, c) of the grouped view is the product's entry in row r and the column of channel c of group b. -/
theorem v2_at (x0 : (⟨S512x512x4x4, .f32⟩ : BufTy).Contents (Elt Ideal)) (x1 : (⟨S8192x1024, .f32⟩ : BufTy).Contents (Elt Ideal))
    (r : Fin 512) (b : Fin 64) (c : Fin 16) :
    val_main_v2 (F := Ideal) x0 x1 (ix3 r b c)
      = Cert.Spec.prod (val_main_v0 (F := Ideal) x0) x1 r (Cert.Spec.chan b c) := by
  rw [val_main_v2_apply, idx2, v1_at]

/-- The difference at (r, k, b, c): row r against row k in channel c of group b. -/
theorem v7_at (x0 : (⟨S512x512x4x4, .f32⟩ : BufTy).Contents (Elt Ideal)) (x1 : (⟨S8192x1024, .f32⟩ : BufTy).Contents (Elt Ideal))
    (r k : Fin 512) (b : Fin 64) (c : Fin 16) :
    (val_main_v7 (F := Ideal) x0 x1 (ix4 r k b c) : EReal)
      = Cert.Spec.prod (val_main_v0 (F := Ideal) x0) x1 r (Cert.Spec.chan b c)
        - Cert.Spec.prod (val_main_v0 (F := Ideal) x0) x1 k (Cert.Spec.chan b c) := by
  rw [val_main_v7_apply, val_main_v5_apply, val_main_v6_apply, idx5, idx6, val_main_v3_apply, val_main_v4_apply,
    idx3, idx4, v2_at, v2_at]
  rfl

/-- Its absolute value. -/
theorem v8_at (x0 : (⟨S512x512x4x4, .f32⟩ : BufTy).Contents (Elt Ideal)) (x1 : (⟨S8192x1024, .f32⟩ : BufTy).Contents (Elt Ideal))
    (r k : Fin 512) (b : Fin 64) (c : Fin 16) :
    (val_main_v8 (F := Ideal) x0 x1 (ix4 r k b c) : EReal)
      = Cert.Spec.absE (Cert.Spec.prod (val_main_v0 (F := Ideal) x0) x1 r (Cert.Spec.chan b c)
        - Cert.Spec.prod (val_main_v0 (F := Ideal) x0) x1 k (Cert.Spec.chan b c)) := by
  rw [val_main_v8_apply, v7_at]
  rfl

/-- The channel sum at (r, k, b) is the distance between rows r and k over group b. -/
theorem v9_at (x0 : (⟨S512x512x4x4, .f32⟩ : BufTy).Contents (Elt Ideal)) (x1 : (⟨S8192x1024, .f32⟩ : BufTy).Contents (Elt Ideal))
    (r k : Fin 512) (b : Fin 64) :
    (val_main_v9 (F := Ideal) x0 x1 (ix3 r k b) : EReal)
      = Cert.Spec.dist (Cert.Spec.prod (val_main_v0 (F := Ideal) x0) x1) b r k := by
  rw [val_main_v9_apply, val_main_cst_apply, Ideal.ofBits_def, Ideal.ofBits_zero_f32, zero_add]
  unfold Cert.Spec.dist
  refine Finset.sum_congr rfl fun c _ => ?_
  rw [idx9, v8_at]

/-- The exponential of the negated distance. -/
theorem v11_at (x0 : (⟨S512x512x4x4, .f32⟩ : BufTy).Contents (Elt Ideal)) (x1 : (⟨S8192x1024, .f32⟩ : BufTy).Contents (Elt Ideal))
    (r k : Fin 512) (b : Fin 64) :
    (val_main_v11 (F := Ideal) x0 x1 (ix3 r k b) : EReal)
      = Ideal.exp (-(Cert.Spec.dist (Cert.Spec.prod (val_main_v0 (F := Ideal) x0) x1) b r k)) := by
  rw [val_main_v11_apply, val_main_v10_apply, v9_at]
  rfl

/-- The reference's second result operand at (r, b) is the specification's entry for row r and group b. -/
theorem o_eq (x0 : (⟨S512x512x4x4, .f32⟩ : BufTy).Contents (Elt Ideal)) (x1 : (⟨S8192x1024, .f32⟩ : BufTy).Contents (Elt Ideal))
    (r : Fin 512) (b : Fin 64) :
    val_main_v12 (F := Ideal) x0 x1 (ix2 r b)
      = Cert.Spec.kern (Cert.Spec.prod (val_main_v0 (F := Ideal) x0) x1) b r := by
  rw [val_main_v12_apply, val_main_cst_0_apply, Ideal.ofBits_def, Ideal.ofBits_zero_f32, zero_add]
  unfold Cert.Spec.kern
  refine Finset.sum_congr rfl fun k _ => ?_
  rw [idx12, v11_at]

/-- The reference's result joins the reshaped first argument and the 512 x 64 array of sums along the second axis. -/
theorem result_eq (x0 : (⟨S512x512x4x4, .f32⟩ : BufTy).Contents (Elt Ideal)) (x1 : (⟨S8192x1024, .f32⟩ : BufTy).Contents (Elt Ideal)) :
    val_main_v13 (F := Ideal) x0 x1
      = concatenate S512x8256 1 [⟨S512x8192, val_main_v0 (F := Ideal) x0⟩, ⟨S512x64, val_main_v12 (F := Ideal) x0 x1⟩]
          concatenates_S512x8192_S512x64_S512x8256_d1 := rfl

end Cert.ReferenceIdeal.RefValue

end
-- ==== Proof.Join.lean ====
/-
  The two programs compute one function.

  The kernel program's result is the concatenation, along the columns, of x (the first argument reshaped to
  [512, 8192]) with the transpose of the pairwise stage's [64, 512] output; the reference's is the concatenation of the
  same x with its own [512, 64] array.  So it is enough that the two [512, 64] arrays agree at every entry (r, b).
  On the kernel's side that entry is the stage's output at (b, r): the sum over j of
  exp(0 - sum over c of |C(b, r, c) - R(b, c, j)|), where C and R are the two transposes of M = x T regrouped as
  [512, 64, 16], so C(b, r, c) = M(r, 16 b + c) and R(b, c, j) = M(j, 16 b + c), and M is the matmul stage's output,
  the whole product.  On the reference's side it is the sum over j of exp(-(sum over c of |M(r, 16 b + c) - M(j, 16 b + c)|)).
  The one law joining them is 0 - z = -z, which holds of every extended real; no input is assumed finite.
-/
import proofs.«113469_j1580547969899_2_alg».proof.Proof.MatValue
import proofs.«113469_j1580547969899_2_alg».proof.Proof.PairValue
import proofs.«113469_j1580547969899_2_alg».proof.Proof.KRun
import proofs.«113469_j1580547969899_2_alg».proof.Proof.HostFold
import proofs.«113469_j1580547969899_2_alg».proof.Proof.RefValue
import proofs.«113469_j1580547969899_2_alg».proof.Proof.Spec

noncomputable section

namespace Cert.KernelIdeal.Join

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- x: the first argument as a [512, 8192] array. -/
abbrev xOf : Cert.Spec.SX.Idx → EReal :=
  shapeCast S512x8192 (m ((c.tc : Thread nD τ).loc main_arg0)) shapeCasts_S512x512x4x4_S512x8192

/-- M = x T. -/
abbrev prodOf : Fin 512 → Fin 1024 → EReal := Cert.Spec.prod (xOf m c) (m ((c.tc : Thread nD τ).loc main_arg1))

/-- The pairwise stage's output at (b, i), from what the matmul stage and the host operations between them hand it,
    is the specification's entry. -/
theorem pair_eq_kern (b : Fin 64) (i : Fin 512) :
    Cert.KernelIdeal.PairValue.pairOf (V3 m ρ c main_v4) (V3 m ρ c main_v3) b i = Cert.Spec.kern (prodOf m c) b i := by
  unfold Cert.KernelIdeal.PairValue.pairOf Cert.Spec.kern Cert.Spec.dist
  refine Finset.sum_congr rfl fun j _ => ?_
  rw [zero_sub]
  refine congrArg (fun z => Ideal.exp (-z)) (Finset.sum_congr rfl fun cc _ => ?_)
  rw [Cert.KernelIdeal.KRun.V3_col, Cert.KernelIdeal.KRun.V3_row, Cert.KernelIdeal.MatVal.final, Cert.KernelIdeal.MatVal.final,
    Cert.KernelIdeal.KRun.V1_x, Cert.KernelIdeal.KRun.V1_T]

/-- The transposed output of the pairwise stage is the reference's [512, 64] array of the same arguments. -/
theorem o_eq :
    transpose S512x64 [1, 0] ((dat1 (V3 m ρ) c).arrAt 2 cfg1.N) transposes_S64x512_S512x64_1_0
      = Cert.ReferenceIdeal.Read.val_main_v12 (F := Ideal) (m ((c.tc : Thread nD τ).loc main_arg0)) (m ((c.tc : Thread nD τ).loc main_arg1)) := by
  funext y
  obtain ⟨r, b, rfl⟩ : ∃ (r : Fin 512) (b : Fin 64), y = ix2 r b := ⟨y 0, y 1, eq_ix2 y⟩
  rw [Cert.KernelIdeal.KRun.transpose_o, Cert.KernelIdeal.PairValue.final, pair_eq_kern, Cert.ReferenceIdeal.RefValue.o_eq,
    Cert.ReferenceIdeal.RefValue.x_eq]

/-- The kernel program's result is the reference's stage for the result, of the same arguments. -/
theorem result_eq :
    W5 m ρ c (Proc.devRef .tc main_v7)
      = Cert.ReferenceIdeal.Read.val_main_v13 (F := Ideal) (m ((c.tc : Thread nD τ).loc main_arg0)) (m ((c.tc : Thread nD τ).loc main_arg1)) := by
  rw [Cert.KernelIdeal.KRun.W5_result, o_eq, Cert.ReferenceIdeal.RefValue.result_eq, Cert.ReferenceIdeal.RefValue.x_eq]

end Cert.KernelIdeal.Join

end
-- ==== Proof.lean ====
/-
  The certificate of this kernel against its reference.

  Both programs take inp : [512, 512, 4, 4] and T : [8192, 1024].  With x = inp reshaped to [512, 8192] and M = x T, whose
  1024 columns are 64 groups of 16 channels, both return [x | o] : [512, 8256] where
      o(i, b) = sum over j of exp(-(sum over the 16 channels c of |M(i, 16 b + c) - M(j, 16 b + c)|)).
  The kernel program computes M in one pallas_call (the contraction accumulated over 8 blocks of 1024, the output in two
  column halves, operands truncated to bf16: the identity on extended reals), regroups and transposes it on the host,
  computes o transposed in a second pallas_call (8 groups per grid point, one loop trip per group: a 512 x 512 scratch
  accumulates the 16 channels' |column - row| arrays from zero, then the row sums of exp(0 - scratch)), transposes it back
  and concatenates.  The reference computes the same from one dot_general, broadcasts and two sums.  At the ideal
  instance the two results are equal entry by entry: sums regrouped (commutativity and associativity of + on the
  extended reals), 0 + z = z, and 0 - z = -z; nothing is assumed of the inputs beyond what the claim states.

  The modules: Spec (the function), Mat* (the matmul stage's output is M), PairTrip / PairPieces / PairPay / PairBlocks /
  PairValue (the pairwise stage's output), KRun / HostRead / HostFold (the program's run with its result named, and the host
  operations read back), Ref* (the reference is the function), Join (the two results are one array).
-/
import proofs.«113469_j1580547969899_2_alg».proof.Defs
import proofs.«113469_j1580547969899_2_alg».proof.Proof.Gen.Kernel
import proofs.«113469_j1580547969899_2_alg».proof.Proof.Gen.KernelIdeal
import proofs.«113469_j1580547969899_2_alg».proof.Proof.Gen.ReferenceIdeal
import proofs.«113469_j1580547969899_2_alg».proof.Proof.Gen.ReferenceIdeal.Run
import proofs.«113469_j1580547969899_2_alg».proof.Proof.Gen.ReferenceIdeal.Read
import proofs.«113469_j1580547969899_2_alg».proof.Proof.Gen.Pre_finite_inputs
import proofs.«113469_j1580547969899_2_alg».proof.Proof.FrameKernel
import proofs.«113469_j1580547969899_2_alg».proof.Proof.FrameKernelIdeal
import proofs.«113469_j1580547969899_2_alg».proof.Proof.Join
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.GenP.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two arguments both idealized programs end with the same result array: the kernel
    program's result, read back through its two stages and the host operations around them, is the reference's
    composed term of the arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.GenP.W5 m ρ c (Proc.devRef .tc Cert.KernelIdeal.main_v7), Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact (Cert.KernelIdeal.Join.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
